-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S8x2048x2048 : Shape := ⟨3, ![8, 2048, 2048]⟩
abbrev S256x256 : Shape := ⟨2, ![256, 256]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8x2048x256 .f32) (main_arg1 : FVec F S8x2048x2048 .f32) (main_arg2 : FVec F S256x256 .f32) (main_arg3 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8x2048x256 : Shape := ⟨3, ![8, 2048, 256]⟩
abbrev S8x2048x2048 : Shape := ⟨3, ![8, 2048, 2048]⟩
abbrev S256x256 : Shape := ⟨2, ![256, 256]⟩
abbrev S256 : Shape := ⟨1, ![256]⟩
abbrev S8x2048x1 : Shape := ⟨3, ![8, 2048, 1]⟩
abbrev S1x512x2048 : Shape := ⟨3, ![1, 512, 2048]⟩
abbrev S1x512x1 : Shape := ⟨3, ![1, 512, 1]⟩
abbrev S512x2048 : Shape := ⟨2, ![512, 2048]⟩
abbrev S512 : Shape := ⟨1, ![512]⟩
abbrev S512x1 : Shape := ⟨2, ![512, 1]⟩
abbrev S1x1024x2048 : Shape := ⟨3, ![1, 1024, 2048]⟩
abbrev S1x2048x256 : Shape := ⟨3, ![1, 2048, 256]⟩
abbrev S1x2048x1 : Shape := ⟨3, ![1, 2048, 1]⟩
abbrev S1x1024x256 : Shape := ⟨3, ![1, 1024, 256]⟩
abbrev S2048x256 : Shape := ⟨2, ![2048, 256]⟩
abbrev S2048x1 : Shape := ⟨2, ![2048, 1]⟩
abbrev S1024x2048 : Shape := ⟨2, ![1024, 2048]⟩
abbrev S1024x256 : Shape := ⟨2, ![1024, 256]⟩
abbrev S1024x1 : Shape := ⟨2, ![1024, 1]⟩
abbrev S1x256 : Shape := ⟨2, ![1, 256]⟩

abbrev nBuf : Space → Nat
  | .hbm => 6
  | .vmem => 16
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S256x256, .f32⟩
  | .hbm, ⟨3, _⟩ => ⟨S256, .f32⟩
  | .hbm, ⟨4, _⟩ => ⟨S8x2048x1, .f32⟩
  | .hbm, ⟨5, _⟩ => ⟨S8x2048x256, .f32⟩
  | .local _ .vmem, ⟨0, _⟩ => ⟨S1x512x2048, .f32⟩
  | .local _ .vmem, ⟨1, _⟩ => ⟨S1x512x2048, .f32⟩
  | .local _ .vmem, ⟨2, _⟩ => ⟨S1x512x1, .f32⟩
  | .local _ .vmem, ⟨3, _⟩ => ⟨S1x512x1, .f32⟩
  | .local _ .vmem, ⟨4, _⟩ => ⟨S1x1024x2048, .f32⟩
  | .local _ .vmem, ⟨5, _⟩ => ⟨S1x1024x2048, .f32⟩
  | .local _ .vmem, ⟨6, _⟩ => ⟨S1x2048x256, .f32⟩
  | .local _ .vmem, ⟨7, _⟩ => ⟨S1x2048x256, .f32⟩
  | .local _ .vmem, ⟨8, _⟩ => ⟨S256x256, .f32⟩
  | .local _ .vmem, ⟨9, _⟩ => ⟨S1x2048x1, .f32⟩
  | .local _ .vmem, ⟨10, _⟩ => ⟨S1x2048x1, .f32⟩
  | .local _ .vmem, ⟨11, _⟩ => ⟨S256, .f32⟩
  | .local _ .vmem, ⟨12, _⟩ => ⟨S1x1024x256, .f32⟩
  | .local _ .vmem, ⟨13, _⟩ => ⟨S1x1024x256, .f32⟩
  | .local _ .vmem, ⟨14, _⟩ => ⟨S2048x256, .f32⟩
  | .local _ .vmem, ⟨15, _⟩ => ⟨S2048x256, .bf16⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![8, 2], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v12 : Index := Scalar.indexCast v4
  let c0_8 : Index := 0#32
  ![v12.toNat, 0]
def k1_off2 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v15 : Index := Scalar.indexCast v4
  let c0_9 : Index := 0#32
  ![v15.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  broadcasts_S2048x1_S2048x256 : S2048x1.Broadcasts S2048x256
  packedbf16_S2048x256_S2048x256_0_0 : (Rect.unit (s := S2048x256) ![0, 0] S2048x256.size inb_S2048x256_S2048x256_0_0).PackedRows (EltTy.packing .bf16)
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  squeezes_S1x2048x1_S2048x1 : S1x2048x1.Squeezes S2048x1
  h_S1024x1 : 0 < S1024x1.numel
  shapeCasts_S1024x1_S1024x1 : S1024x1.ShapeCasts S1024x1
  h_S1024x256 : 0 < S1024x256.numel
  inb_S256_S256_0 : ∀ a, (![0] : Fin 1 → Nat) a + S256.size a ≤ S256.size a
  h_S256 : 0 < S256.numel
  shapeCasts_S256_S1x256 : S256.ShapeCasts S1x256
  broadcasts_S1024x1_S1024x256 : S1024x1.Broadcasts S1024x256
  broadcasts_S1x256_S1024x256 : S1x256.Broadcasts S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  dot_S2048x256_S256x256_S2048x256_1_0_0_1_n_n_wf : DotDims.WF S2048x256 S256x256 S2048x256 [1] [0] [0] [1] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .f32 = 32 ∨ (Rect.block (s := S8x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S8x2048x1.size a
  hwx0_1 : ∀ i : grid0.Coords, EltTy.bits .f32 = 32 ∨ (Rect.block (s := S8x2048x1) S1x512x1.size (cc0_transform_1 i) (hinb0_1 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x1.size a ≤ S2048x1.size a
  k1_off2_inb : ∀ i : grid1.Coords, ∀ a, (k1_off2 i) a + S1024x256.size a ≤ S2048x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x2048.size a ≤ S8x2048x2048.size a
  hwx1_0 : ∀ i : grid1.Coords, EltTy.bits .f32 = 32 ∨ (Rect.block (s := S8x2048x2048) S1x1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x256.size a ≤ S8x2048x256.size a
  hwx1_1 : ∀ i : grid1.Coords, EltTy.bits .f32 = 32 ∨ (Rect.block (s := S8x2048x256) S1x2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1.size a ≤ S8x2048x1.size a
  hwx1_3 : ∀ i : grid1.Coords, EltTy.bits .f32 = 32 ∨ (Rect.block (s := S8x2048x1) S1x2048x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x256.size a ≤ S8x2048x256.size a
  hwx1_5 : ∀ i : grid1.Coords, EltTy.bits .f32 = 32 ∨ (Rect.block (s := S8x2048x256) S1x1024x256.size (cc1_transform_5 i) (hinb1_5 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1x1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1x1024x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x2048x256 : Shape := ⟨3, ![8, 2048, 256]⟩
abbrev S8x2048x2048 : Shape := ⟨3, ![8, 2048, 2048]⟩
abbrev S256x256 : Shape := ⟨2, ![256, 256]⟩
abbrev S256 : Shape := ⟨1, ![256]⟩
abbrev S2048x2048 : Shape := ⟨2, ![2048, 2048]⟩
abbrev S_ : Shape := ⟨0, ![]⟩
abbrev S1x2048x2048 : Shape := ⟨3, ![1, 2048, 2048]⟩
abbrev S8x2048 : Shape := ⟨2, ![8, 2048]⟩
abbrev S8x2048x1 : Shape := ⟨3, ![8, 2048, 1]⟩
abbrev S8x1x2048 : Shape := ⟨3, ![8, 1, 2048]⟩
abbrev S1x1x256 : Shape := ⟨3, ![1, 1, 256]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S256x256, .f32⟩
  | .hbm, ⟨3, _⟩ => ⟨S256, .f32⟩
  | .hbm, ⟨4, _⟩ => ⟨S2048x2048, .i32⟩
  | .hbm, ⟨5, _⟩ => ⟨S2048x2048, .i32⟩
  | .hbm, ⟨6, _⟩ => ⟨S_, .i32⟩
  | .hbm, ⟨7, _⟩ => ⟨S2048x2048, .i32⟩
  | .hbm, ⟨8, _⟩ => ⟨S2048x2048, .i32⟩
  | .hbm, ⟨9, _⟩ => ⟨S2048x2048, .i1⟩
  | .hbm, ⟨10, _⟩ => ⟨S2048x2048, .f32⟩
  | .hbm, ⟨11, _⟩ => ⟨S1x2048x2048, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048, .f32⟩
  | .hbm, ⟨16, _⟩ => ⟨S_, .f32⟩
  | .hbm, ⟨17, _⟩ => ⟨S8x2048, .f32⟩
  | .hbm, ⟨18, _⟩ => ⟨S8x2048, .f32⟩
  | .hbm, ⟨19, _⟩ => ⟨S8x2048, .f32⟩
  | .hbm, ⟨20, _⟩ => ⟨S_, .f32⟩
  | .hbm, ⟨21, _⟩ => ⟨S8x2048, .f32⟩
  | .hbm, ⟨22, _⟩ => ⟨S8x2048, .i1⟩
  | .hbm, ⟨23, _⟩ => ⟨S_, .f32⟩
  | .hbm, ⟨24, _⟩ => ⟨S_, .f32⟩
  | .hbm, ⟨25, _⟩ => ⟨S8x2048, .f32⟩
  | .hbm, ⟨26, _⟩ => ⟨S8x2048, .f32⟩
  | .hbm, ⟨27, _⟩ => ⟨S8x2048x1, .f32⟩
  | .hbm, ⟨28, _⟩ => ⟨S8x2048x2048, .f32⟩
  | .hbm, ⟨29, _⟩ => ⟨S8x2048x2048, .f32⟩
  | .hbm, ⟨30, _⟩ => ⟨S8x1x2048, .f32⟩
  | .hbm, ⟨31, _⟩ => ⟨S8x2048x2048, .f32⟩
  | .hbm, ⟨32, _⟩ => ⟨S8x2048x2048, .f32⟩
  | .hbm, ⟨33, _⟩ => ⟨S8x2048x256, .f32⟩
  | .hbm, ⟨34, _⟩ => ⟨S8x2048x256, .f32⟩
  | .hbm, ⟨35, _⟩ => ⟨S1x1x256, .f32⟩
  | .hbm, ⟨36, _⟩ => ⟨S8x2048x256, .f32⟩
  | .hbm, ⟨37, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_v12 : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  dot_S8x2048x256_S256x256_S8x2048x256_2_0_01_1_n_n_wf : DotDims.WF S8x2048x256 S256x256 S8x2048x256 [2] [0] [0, 1] [1] [] []
  dot_S8x2048x2048_S8x2048x256_S8x2048x256_2_1_1_2_0_0_wf : DotDims.WF S8x2048x2048 S8x2048x256 S8x2048x256 [2] [1] [1] [2] [0] [0]

variable [Facts₀]

def dot_S8x2048x256_S256x256_S8x2048x256_2_0_01_1_n_n : DotDims S8x2048x256 S256x256 S8x2048x256 where
  lhsContracting := [2]
  rhsContracting := [0]
  lhsNonContracting := [0, 1]
  rhsNonContracting := [1]
  lhsBatch := []
  rhsBatch := []
  wf := dot_S8x2048x256_S256x256_S8x2048x256_2_0_01_1_n_n_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.KBase.lean ====
/-
  What the two kernel regions of the program share, at any float instance `F` and at a PARAMETER `V` (the unscoped
  buffers' contents when a region is entered): the block of each window at a grid point; that an input window's
  staging buffer holds that block at every point, whether the pipeline fetched it there or kept it from the point
  before (the block index did not move); the branch of the second kernel — taken exactly at the first row tile of
  a batch, the even points —; and the region invariant of the second kernel opened into its two scratch buffers.
-/
import proofs.«171897_j16801912062239_2_alg».proof.Proof.Gen.Kernel.Launch
import proofs.«171897_j16801912062239_2_alg».proof.Proof.Gen.Kernel.Skeleton
import proofs.«171897_j16801912062239_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w` of the degree kernel at point `t`: a [1, 512, 2048] block of rows of `adj` (window 0), the
    [1, 512, 1] block of the normaliser column it writes (window 1), read off the arrays as the region finds them. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w` of the aggregate kernel at point `t` = (batch, row tile): 1024 rows of `adj`, the batch's features,
    the weights, the batch's normaliser column, the bias, and the 1024 rows of the result it writes. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input's staging buffer holds its block at every point

For any proof data whose arrays are `V`'s and whose body leaves an input block in place: where the pipeline fetches the
window the buffer holds the fetched block, and where it does not the block index has not moved since the point before. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## The second kernel's branch -/

/-- `pl.when(i == 0)`: the printed scalar chain over the row-tile coordinate. -/
abbrev cond1_0 (i : grid1.Coords) : Prop := (Scalar.cmpi .ne (Scalar.extui (Scalar.cmpi .eq (BitVec.ofNat 32 (i 1).val) 0#32)) 0#32) = 1#1
/-- With two row tiles per batch it holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-! ## The memrefs the pipeline calls the bodies with -/

abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1 .f32 := win0_1.stage (cfg0.slots t 1)
abbrev hs0_1 (t : Fin cfg0.N) : (ms0_1 t).IsWhole := hstage0_1 ((cfg0.slots t 1).cast nbuf0_1)
abbrev ms1_0 (t : Fin cfg1.N) : Memref sig .tc .vmem S1x1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x256 .f32 := win1_5.stage (cfg1.slots t 5)
abbrev hs1_5 (t : Fin cfg1.N) : (ms1_5 t).IsWhole := hstage1_5 ((cfg1.slots t 5).cast nbuf1_5)
/-- The two scratch buffers of the second kernel: the linear layer of the current batch in f32, and the same scaled
    row by row by the normaliser, in bf16. -/
abbrev scM1_0 : Memref sig .tc .vmem S2048x256 .f32 := Memref.whole cc1_scratch0
abbrev scM1_1 : Memref sig .tc .vmem S2048x256 .bf16 := Memref.whole cc1_scratch1
/-- Views through which the contents of the result's staging buffer and of the scratch buffers are stated. -/
abbrev VO1_5 : View sig .tc .vmem S1x1024x256 .f32 := (Memref.whole cc1_stg5_0 : Memref sig .tc .vmem S1x1024x256 .f32).view
abbrev VS1_0 : View sig .tc .vmem S2048x256 .f32 := scM1_0.view
abbrev VS1_1 : View sig .tc .vmem S2048x256 .bf16 := scM1_1.view

/-- The first kernel's four staging buffers, which the second region holds at anything. -/
def idle0 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- The second region's invariant as the launch hands it over: the first kernel's staging buffers and the two scratch
    buffers at anything, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.Kernel.Fr

end
-- ==== Proof.KRun0.lean ====
/-
  The degree kernel's body at one grid point, at any float instance: on whole staging buffers — the block of 512 rows
  of `adj` at its contents, the output column at anything — it runs to the end leaving the input as it was and the
  output column holding its one store: the row sums plus one, their reciprocal square roots, infinite values replaced by 0.
-/
import proofs.«171897_j16801912062239_2_alg».proof.Proof.KBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's two accesses: the whole input block and the whole output column. -/
abbrev r0_in : Rect S1x512x2048 := Rect.unit (s := S1x512x2048) ![0, 0, 0] S1x512x2048.size inb_S1x512x2048_S1x512x2048_0_0_0
abbrev r0_out : Rect S1x512x1 := Rect.unit (s := S1x512x1) ![0, 0, 0] S1x512x1.size inb_S1x512x1_S1x512x1_0_0_0

/-- What the body leaves in the output column's staging buffer, from the input block: its one store. -/
def out0_1 (x0 : Vec F S1x512x2048 .f32) : Vec F S1x512x1 .f32 :=
  View.canon [⟨r0_out, k0_pay1 (View.ld x0 r0_in)⟩]

/-- The store covers the buffer. -/
theorem cover0_1 (p0 : Vec F S1x512x1 .f32) (y : S1x512x1.Idx) :
    ∃ pc ∈ ([⟨r0_out, p0⟩] : List (View.Piece (Elt F) S1x512x1 .f32)), y ∈ pc.1.set :=
  View.cover_of_tiled [⟨r0_out, p0⟩] S1x512x1.size (by rfl) y

set_option maxHeartbeats 1000000 in
/-- The body's triple. -/
theorem sound_kernel0 (c : Dev nD) (E : Set ℕ) (i : grid0.Coords) (arg2 : Memref sig .tc .vmem S1x512x2048 .f32) (harg2 : arg2.IsWhole) (arg3 : Memref sig .tc .vmem S1x512x1 .f32) (harg3 : arg3.IsWhole)
    (x0 : Vec F S1x512x2048 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__deg_kernel i arg2 harg2 arg3 harg3) K := by
  simp only [cc0__deg_kernel_eq_skeleton]; unfold cc0__deg_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

end Cert.Kernel.Fr

end
-- ==== Proof.KRun1A.lean ====
/-
  The aggregate kernel's body at the FIRST row tile of a batch (the branch taken), at any float instance: on whole
  staging buffers at their contents and the two scratch buffers at anything, it runs to the end leaving every input as
  it was, the first scratch buffer holding the batch's linear layer `x W` (one store), the second the same scaled row by
  row by the normaliser (one store), and the result tile holding its one store, which reads both scratch buffers back.
  The pieces are found by running the body.
-/
import proofs.«171897_j16801912062239_2_alg».proof.Proof.KBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the result tile and the two scratch buffers end with, with the body's triple in this case. -/
noncomputable def kernelRun1_A (c : Dev nD) (i : grid1.Coords)
    (arg2 : Memref sig .tc .vmem S1x1024x2048 .f32) (harg2 : arg2.IsWhole) (arg3 : Memref sig .tc .vmem S1x2048x256 .f32) (harg3 : arg3.IsWhole)
    (arg4 : Memref sig .tc .vmem S256x256 .f32) (harg4 : arg4.IsWhole) (arg5 : Memref sig .tc .vmem S1x2048x1 .f32) (harg5 : arg5.IsWhole)
    (arg6 : Memref sig .tc .vmem S256 .f32) (harg6 : arg6.IsWhole) (arg7 : Memref sig .tc .vmem S1x1024x256 .f32) (harg7 : arg7.IsWhole)
    (arg8 : Memref sig .tc .vmem S2048x256 .f32) (harg8 : arg8.IsWhole) (arg9 : Memref sig .tc .vmem S2048x256 .bf16) (harg9 : arg9.IsWhole)
    (hc0 : cond1_0 i)
    (x0 : Vec F S1x1024x2048 .f32) (x1 : Vec F S1x2048x256 .f32) (x2 : Vec F S256x256 .f32) (x3 : Vec F S1x2048x1 .f32) (x4 : Vec F S256 .f32) :
    Σ' (L5 : List (View.Piece (Elt F) S1x1024x256 .f32)) (LS0 : List (View.Piece (Elt F) S2048x256 .f32)), { LS1 : List (View.Piece (Elt F) S2048x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9) K } := by
  refine ⟨?_, ?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H8]
    · iexists _; iexact H8
    iexists _; iexact H9

end Cert.Kernel.Fr

end
-- ==== Proof.KRun1B.lean ====
/-
  The aggregate kernel's body at a point that is NOT the first row tile of its batch (the branch not taken), at any
  float instance: on whole staging buffers at their contents, the two scratch buffers at the contents `xs0` (the batch's
  linear layer) and `xs1` (the same scaled by the normaliser) the first tile left, it runs to the end leaving every
  input and both scratch buffers as they were and the result tile holding its one store. The store's piece is found by
  running the body; the normaliser rows it reads come through a squeezed view of the column's buffer.
-/
import proofs.«171897_j16801912062239_2_alg».proof.Proof.KBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the result tile ends with, with the body's triple in this case. -/
noncomputable def kernelRun1_B (c : Dev nD) (i : grid1.Coords)
    (arg2 : Memref sig .tc .vmem S1x1024x2048 .f32) (harg2 : arg2.IsWhole) (arg3 : Memref sig .tc .vmem S1x2048x256 .f32) (harg3 : arg3.IsWhole)
    (arg4 : Memref sig .tc .vmem S256x256 .f32) (harg4 : arg4.IsWhole) (arg5 : Memref sig .tc .vmem S1x2048x1 .f32) (harg5 : arg5.IsWhole)
    (arg6 : Memref sig .tc .vmem S256 .f32) (harg6 : arg6.IsWhole) (arg7 : Memref sig .tc .vmem S1x1024x256 .f32) (harg7 : arg7.IsWhole)
    (arg8 : Memref sig .tc .vmem S2048x256 .f32) (harg8 : arg8.IsWhole) (arg9 : Memref sig .tc .vmem S2048x256 .bf16) (harg9 : arg9.IsWhole)
    (hc0 : ¬cond1_0 i)
    (x0 : Vec F S1x1024x2048 .f32) (x1 : Vec F S1x2048x256 .f32) (x2 : Vec F S256x256 .f32) (x3 : Vec F S1x2048x1 .f32) (x4 : Vec F S256 .f32)
    (xs0 : Vec F S2048x256 .f32) (xs1 : Vec F S2048x256 .bf16) :
    { L5 : List (View.Piece (Elt F) S1x1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ owns (c : Thread nD τ) arg8 fullShare xs0 ∗ owns (c : Thread nD τ) arg9 fullShare xs1) -∗ K ⟨⟩))
          ⊢ wp frame (wpE (defs₀ (F := F)) Variants.none c none) E (cc1__main_kernel i arg2 harg2 arg3 harg3 arg4 harg4 arg5 harg5 arg6 harg6 arg7 harg7 arg8 harg8 arg9 harg9) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hf8; obtain rfl := harg9.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H8]
    · iexists _; isplitr; · ipureintro; exact harg8.read_unread _
      iexact H8
    iexists _; isplitr; · ipureintro; exact harg9.read_unread _
    iexact H9

end Cert.Kernel.Fr

end
-- ==== Proof.KData.lean ====
/-
  The proof data of the two kernel regions, at any float instance and at a parameter `V` (the buffers' contents when a
  region is entered), and the two body obligations.

  Region 0 (the degree kernel): after the body at a point the input's buffer holds its block and the output column's
  buffer the body's one store of it.

  Region 1 (the aggregate kernel) carries two scratch buffers across the points of a batch: the body fills them at the
  batch's first row tile (the even point) and reads them at both tiles. So what they hold after ANY point is what the
  even point of that point's batch stored, a function of that batch's blocks (`sAt`); the region invariant after a point
  holds them at those contents, and before the first point at anything. The result tile's buffer after a point holds the
  body's one store (`outAt`), in the first-tile case or the other.
-/
import proofs.«171897_j16801912062239_2_alg».proof.Proof.KRun0
import proofs.«171897_j16801912062239_2_alg».proof.Proof.KRun1A
import proofs.«171897_j16801912062239_2_alg».proof.Proof.KRun1B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 -/

/-- The proof data of the degree kernel's pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

/-! # Region 1 -/

/-- The first row tile of point `t`'s batch. -/
def evenPt (t : Fin cfg1.N) : Fin cfg1.N := ⟨t.val - t.val % 2, lt_of_le_of_lt (Nat.sub_le _ _) t.isLt⟩
theorem evenPt_cond (t : Fin cfg1.N) : cond1_0 (grid1.coords (evenPt t)) :=
  (hcond1_0 _).mpr (by show (t.val - t.val % 2) % 2 = 0; omega)

/-- What the first-tile body at the even point `t` leaves in the two scratch buffers: its stores read back. -/
def sAtA (c : Dev nD) (t : Fin cfg1.N) (h : cond1_0 (grid1.coords t)) : Vec F S2048x256 .f32 × Vec F S2048x256 .bf16 :=
  (VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 0 t) (iblk1 V c 1 t) (iblk1 V c 2 t) (iblk1 V c 3 t) (iblk1 V c 4 t)).2.1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 0 t) (iblk1 V c 1 t) (iblk1 V c 2 t) (iblk1 V c 3 t) (iblk1 V c 4 t)).2.2.1))

theorem sAtA_congr (c : Dev nD) (t t' : Fin cfg1.N) (e : t = t') (h : cond1_0 (grid1.coords t)) (h' : cond1_0 (grid1.coords t')) :
    sAtA V c t h = sAtA V c t' h' := by subst e; rfl

/-- What the two scratch buffers hold after point `t`: what the first tile of its batch stored. -/
def sAt (c : Dev nD) (t : Fin cfg1.N) : Vec F S2048x256 .f32 × Vec F S2048x256 .bf16 := sAtA V c (evenPt t) (evenPt_cond t)

theorem sAt_even (c : Dev nD) (t : Fin cfg1.N) (h : t.val % 2 = 0) : sAt V c t = sAtA V c t ((hcond1_0 t).mpr h) :=
  sAtA_congr V c _ _ (Fin.ext (by show t.val - t.val % 2 = t.val; omega)) _ _

theorem sAt_odd (c : Dev nD) (t : Fin cfg1.N) (h : ¬ t.val % 2 = 0) (hlt : t.val - 1 < cfg1.N) : sAt V c ⟨t.val - 1, hlt⟩ = sAt V c t :=
  sAtA_congr V c _ _ (Fin.ext (by show (t.val - 1) - (t.val - 1) % 2 = t.val - t.val % 2; omega)) _ _

/-- The first-tile body's stores cover each scratch buffer and the result tile; the other case's store covers the result tile. -/
theorem scover1_A_0 (c : Dev nD) (t : Fin cfg1.N) (h : cond1_0 (grid1.coords t)) (y : S2048x256.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 0 t) (iblk1 V c 1 t) (iblk1 V c 2 t) (iblk1 V c 3 t) (iblk1 V c 4 t)).2.1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 0 t) (iblk1 V c 1 t) (iblk1 V c 2 t) (iblk1 V c 3 t) (iblk1 V c 4 t)).2.1 S2048x256.size (by sl_kernel_rfl) y
theorem scover1_A_1 (c : Dev nD) (t : Fin cfg1.N) (h : cond1_0 (grid1.coords t)) (y : S2048x256.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 0 t) (iblk1 V c 1 t) (iblk1 V c 2 t) (iblk1 V c 3 t) (iblk1 V c 4 t)).2.2.1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 0 t) (iblk1 V c 1 t) (iblk1 V c 2 t) (iblk1 V c 3 t) (iblk1 V c 4 t)).2.2.1 S2048x256.size (by sl_kernel_rfl) y
theorem cover1_A_5 (c : Dev nD) (t : Fin cfg1.N) (h : cond1_0 (grid1.coords t)) (y : S1x1024x256.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 0 t) (iblk1 V c 1 t) (iblk1 V c 2 t) (iblk1 V c 3 t) (iblk1 V c 4 t)).1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 0 t) (iblk1 V c 1 t) (iblk1 V c 2 t) (iblk1 V c 3 t) (iblk1 V c 4 t)).1 S1x1024x256.size (by sl_kernel_rfl) y
theorem cover1_B_5 (c : Dev nD) (t : Fin cfg1.N) (h : ¬cond1_0 (grid1.coords t)) (xs0 : Vec F S2048x256 .f32) (xs1 : Vec F S2048x256 .bf16) (y : S1x1024x256.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 0 t) (iblk1 V c 1 t) (iblk1 V c 2 t) (iblk1 V c 3 t) (iblk1 V c 4 t) xs0 xs1).1, y ∈ pc.1.set :=
  View.cover_of_tiledL (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 0 t) (iblk1 V c 1 t) (iblk1 V c 2 t) (iblk1 V c 3 t) (iblk1 V c 4 t) xs0 xs1).1 S1x1024x256.size (by sl_kernel_rfl) y

/-- What the result tile's staging buffer holds after the body at point `t`. -/
def outAt (c : Dev nD) (t : Fin cfg1.N) : Vec F S1x1024x256 .f32 :=
  if h : t.val % 2 = 0 then VO1_5.read (Elt F) (VO1_5.writes (Elt F) VO1_5.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h) (iblk1 V c 0 t) (iblk1 V c 1 t) (iblk1 V c 2 t) (iblk1 V c 3 t) (iblk1 V c 4 t)).1)
  else VO1_5.read (Elt F) (VO1_5.writes (Elt F) VO1_5.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun hc => h ((hcond1_0 t).mp hc)) (iblk1 V c 0 t) (iblk1 V c 1 t) (iblk1 V c 2 t) (iblk1 V c 3 t) (iblk1 V c 4 t) (sAt V c t).1 (sAt V c t).2).1)

theorem outAt_even (c : Dev nD) (t : Fin cfg1.N) (h : t.val % 2 = 0) :
    outAt V c t = VO1_5.read (Elt F) (VO1_5.writes (Elt F) VO1_5.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h) (iblk1 V c 0 t) (iblk1 V c 1 t) (iblk1 V c 2 t) (iblk1 V c 3 t) (iblk1 V c 4 t)).1) := by
  unfold outAt; exact dif_pos h
theorem outAt_odd (c : Dev nD) (t : Fin cfg1.N) (h : ¬ t.val % 2 = 0) :
    outAt V c t = VO1_5.read (Elt F) (VO1_5.writes (Elt F) VO1_5.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun hc => h ((hcond1_0 t).mp hc)) (iblk1 V c 0 t) (iblk1 V c 1 t) (iblk1 V c 2 t) (iblk1 V c 3 t) (iblk1 V c 4 t) (sAt V c t).1 (sAt V c t).2).1) := by
  unfold outAt; exact dif_neg h

/-- The region invariant before position `n`: before the first point the launch's (every scoped buffer at anything);
    afterwards the two scratch buffers at what the point before left, the first kernel's staging buffers at anything, and
    the generator register at some state. -/
def PhiS (c : Dev nD) : (n : ℕ) → n ≤ cfg1.N → sProp 𝕄
  | 0, _ => Pipeline.ΦA spec1 c
  | n + 1, hn => iprop(iprop(idle0 c ∗ owns (c : Thread nD τ) scM1_0 fullShare (sAt V c ⟨n, hn⟩).1 ∗ owns (c : Thread nD τ) scM1_1 fullShare (sAt V c ⟨n, hn⟩).2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (t : Fin cfg1.N) :
    PhiS V c (t.val + 1) t.isLt = iprop(iprop(idle0 c ∗ owns (c : Thread nD τ) scM1_0 fullShare (sAt V c t).1 ∗ owns (c : Thread nD τ) scM1_1 fullShare (sAt V c t).2) ∗ (∃ r, prngReg c r)) := rfl
theorem PhiS_pos (c : Dev nD) (n : ℕ) (h : n ≤ cfg1.N) (hz : n ≠ 0) :
    PhiS V c n h = iprop(iprop(idle0 c ∗ owns (c : Thread nD τ) scM1_0 fullShare (sAt V c ⟨n - 1, by omega⟩).1 ∗ owns (c : Thread nD τ) scM1_1 fullShare (sAt V c ⟨n - 1, by omega⟩).2) ∗ (∃ r, prngReg c r)) := by
  cases n with
  | zero => exact absurd rfl hz
  | succ n => rfl

/-- The proof data of the aggregate kernel's pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4800000 in
/-- The body at any point: the inputs' buffers hold their blocks; at an even point the first-tile run applies from
    scratch buffers at anything and leaves them at `sAt`; at an odd point the invariant hands over the scratch buffers
    at what the even point before left, which is `sAt` of this point too, and the other run leaves them so. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3, after1_4, after1_5]
  have hN : t.val < 16 := lt_of_lt_of_eq t.isLt (show cfg1.N = 16 from N_1)
  by_cases h0 : t.val % 2 = 0
  · rw [outAt_even V c t h0, sAt_even V c t h0]
    unfold sAtA; dsimp only
    have hrun := (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (iblk1 V c 0 t) (iblk1 V c 1 t) (iblk1 V c 2 t) (iblk1 V c 3 t) (iblk1 V c 4 t)).2.2.2 Set.univ
    by_cases hz : t.val = 0
    · rw [PhiS_castSucc V c t, PhiS_zero V c _ _ hz, PhiA1_eq]
      iintro ⟨⟨⟨HA, HB, HC, HD, HS0, HS1⟩, Hg⟩, Ho, ⟨%d0, H0⟩, ⟨%d1, H1⟩, ⟨%d2, H2⟩, ⟨%d3, H3⟩, ⟨%d4, H4⟩, ⟨%d5, H5⟩⟩
      iapply (hrun _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%e8, HS0⟩, ⟨%e9, HS1⟩⟩
      isplitl [HA HB HC HD HS0 HS1 Hg]
      · isplitr [Hg]
        · isplitl [HA HB HC HD]
          · unfold idle0
            isplitl [HA]; · iexact HA
            isplitl [HB]; · iexact HB
            isplitl [HC]; · iexact HC
            iexact HD
          isplitl [HS0]
          · unfold owns; iexists _; isplitr
            swap; · iexact HS0
            ipureintro; exact View.read_writes_of_cover _ _ _ _ _ (scover1_A_0 V c t _)
          · unfold owns; iexists _; isplitr
            swap; · iexact HS1
            ipureintro; exact View.read_writes_of_cover _ _ _ _ _ (scover1_A_1 V c t _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_A_5 V c t _)
    · rw [PhiS_castSucc V c t, PhiS_pos V c _ _ hz]
      iintro ⟨⟨⟨HI, HS0, HS1⟩, Hg⟩, Ho, ⟨%d0, H0⟩, ⟨%d1, H1⟩, ⟨%d2, H2⟩, ⟨%d3, H3⟩, ⟨%d4, H4⟩, ⟨%d5, H5⟩⟩
      iapply (hrun _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      iintro ⟨H0, H1, H2, H3, H4, ⟨%e5, H5⟩, ⟨%e8, HS0⟩, ⟨%e9, HS1⟩⟩
      isplitl [HI HS0 HS1 Hg]
      · isplitr [Hg]
        · isplitl [HI]; · iexact HI
          isplitl [HS0]
          · unfold owns; iexists _; isplitr
            swap; · iexact HS0
            ipureintro; exact View.read_writes_of_cover _ _ _ _ _ (scover1_A_0 V c t _)
          · unfold owns; iexists _; isplitr
            swap; · iexact HS1
            ipureintro; exact View.read_writes_of_cover _ _ _ _ _ (scover1_A_1 V c t _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_A_5 V c t _)
  · have hz : t.val ≠ 0 := fun e => h0 (by rw [e])
    rw [outAt_odd V c t h0]
    have hrun := (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun hc => h0 ((hcond1_0 t).mp hc)) (iblk1 V c 0 t) (iblk1 V c 1 t) (iblk1 V c 2 t) (iblk1 V c 3 t) (iblk1 V c 4 t) (sAt V c t).1 (sAt V c t).2).2 Set.univ
    rw [PhiS_castSucc V c t, PhiS_pos V c _ _ hz, sAt_odd V c t h0 _]
    iintro ⟨⟨⟨HI, HS0, HS1⟩, Hg⟩, Ho, ⟨%d0, H0⟩, ⟨%d1, H1⟩, ⟨%d2, H2⟩, ⟨%d3, H3⟩, ⟨%d4, H4⟩, ⟨%d5, H5⟩⟩
    iapply (hrun _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%e5, H5⟩, HS0, HS1⟩
    isplitl [HI HS0 HS1 Hg]
    · isplitr [Hg]
      · isplitl [HI]; · iexact HI
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_B_5 V c t _ _ _)

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the launch's back: the scratch buffers' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 16 := N_1; omega), PhiA1_eq]
  unfold idle0
  iintro ⟨⟨⟨HA, HB, HC, HD⟩, HS0, HS1⟩, Hg⟩
  isplitl [HA HB HC HD HS0 HS1]
  · isplitl [HA]; · iexact HA
    isplitl [HB]; · iexact HB
    isplitl [HC]; · iexact HC
    isplitl [HD]; · iexact HD
    isplitl [HS0]; · iexists _; iexact HS0
    iexists _; iexact HS1
  iexact Hg

end Cert.Kernel.Fr

end
-- ==== Proof.KMain.lean ====
/-
  The run of the whole program at any float instance: @main is the degree kernel's region followed by the aggregate
  kernel's. The unscoped buffers' contents at the three boundaries — at launch (`W0`), after the first region (`W1`: the
  normaliser column `main_v0` at what its write-backs leave, everything else as launched) and after the second (`W2`: the
  result `main_v1` at what its write-backs leave) —, each pipeline's proof data at its region's entry contents, the two
  regions as segments of the launch, and the run: every weakly fair execution terminates with the result buffer at
  `W2`'s contents and the four arguments as launched. The frame claim is this run with the result forgotten.
-/
import proofs.«171897_j16801912062239_2_alg».proof.Proof.KData

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched: a region reads an argument through an input window or does not touch it -/

/-- `x`: input window 1 of region 1, no array of region 0. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 1).trans (((dat1 (V1 m ρ) c).arrAt_in 1 rfl _).trans (A_eq1 (V1 m ρ) c 1))
    _ = W0 m ρ c (Proc.devRef .tc main_arg0) := W1_of_ne m ρ c main_arg0 (by decide)
    _ = m ((c : Thread nD τ).loc main_arg0) := rfl
/-- `adj`: input window 0 of both regions. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl
/-- `W`: input window 2 of region 1. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := (W2_arr m ρ c 2).trans (((dat1 (V1 m ρ) c).arrAt_in 2 rfl _).trans (A_eq1 (V1 m ρ) c 2))
    _ = W0 m ρ c (Proc.devRef .tc main_arg2) := W1_of_ne m ρ c main_arg2 (by decide)
    _ = m ((c : Thread nD τ).loc main_arg2) := rfl
/-- `b`: input window 4 of region 1. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := (W2_arr m ρ c 4).trans (((dat1 (V1 m ρ) c).arrAt_in 4 rfl _).trans (A_eq1 (V1 m ρ) c 4))
    _ = W0 m ρ c (Proc.devRef .tc main_arg3) := W1_of_ne m ρ c main_arg3 (by decide)
    _ = m ((c : Thread nD τ).loc main_arg3) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through both regions: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- REGION 0 over the thread state: its arrays split out of the unscoped buffers at the entry contents and put back at the
    exit contents; the generator register into the region invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: its arrays split out of the unscoped buffers at the entry contents and put back at the
    exit contents; the generator register into the region invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V1 m ρ) c).Φ 0 from rfl]
    have h := hin1 (V1 m ρ) c; unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V1 m ρ) c).Φ (Fin.last cfg1.N) from rfl]
    have h := hout1 (V1 m ρ) c; unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

set_option backward.isDefEq.respectTransparency.types false in
/-- THE RUN: from any memory with zero counters every weakly fair execution of @main terminates, nothing faulting, and
    the final memory holds the result buffer at `W2`'s contents and each argument as launched. -/
theorem run_all : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main
    [.region (reg0 m ρ), .region (reg1 m ρ)]
    (fun c Q => by rw [main_segs adm (pdats m ρ) () 𝒱₀ L lv (reg0 m ρ) (reg1 m ρ) c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

/-- THE FRAME: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_all m ρ)

end Cert.Kernel.Fr

end
-- ==== Proof.KIBase.lean ====
/-
  What the two kernel regions of the program share, at any float instance `F` and at a PARAMETER `V` (the unscoped
  buffers' contents when a region is entered): the block of each window at a grid point; that an input window's
  staging buffer holds that block at every point, whether the pipeline fetched it there or kept it from the point
  before (the block index did not move); the branch of the second kernel — taken exactly at the first row tile of
  a batch, the even points —; and the region invariant of the second kernel opened into its two scratch buffers.
-/
import proofs.«171897_j16801912062239_2_alg».proof.Proof.Gen.KernelIdeal.Launch
import proofs.«171897_j16801912062239_2_alg».proof.Proof.Gen.KernelIdeal.Skeleton
import proofs.«171897_j16801912062239_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w` of the degree kernel at point `t`: a [1, 512, 2048] block of rows of `adj` (window 0), the
    [1, 512, 1] block of the normaliser column it writes (window 1), read off the arrays as the region finds them. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w` of the aggregate kernel at point `t` = (batch, row tile): 1024 rows of `adj`, the batch's features,
    the weights, the batch's normaliser column, the bias, and the 1024 rows of the result it writes. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input's staging buffer holds its block at every point

For any proof data whose arrays are `V`'s and whose body leaves an input block in place: where the pipeline fetches the
window the buffer holds the fetched block, and where it does not the block index has not moved since the point before. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## The second kernel's branch -/

/-- `pl.when(i == 0)`: the printed scalar chain over the row-tile coordinate. -/
abbrev cond1_0 (i : grid1.Coords) : Prop := (Scalar.cmpi .ne (Scalar.extui (Scalar.cmpi .eq (BitVec.ofNat 32 (i 1).val) 0#32)) 0#32) = 1#1
/-- With two row tiles per batch it holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-! ## The memrefs the pipeline calls the bodies with -/

abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1 .f32 := win0_1.stage (cfg0.slots t 1)
abbrev hs0_1 (t : Fin cfg0.N) : (ms0_1 t).IsWhole := hstage0_1 ((cfg0.slots t 1).cast nbuf0_1)
abbrev ms1_0 (t : Fin cfg1.N) : Memref sig .tc .vmem S1x1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x256 .f32 := win1_5.stage (cfg1.slots t 5)
abbrev hs1_5 (t : Fin cfg1.N) : (ms1_5 t).IsWhole := hstage1_5 ((cfg1.slots t 5).cast nbuf1_5)
/-- The two scratch buffers of the second kernel: the linear layer of the current batch in f32, and the same scaled
    row by row by the normaliser, in bf16. -/
abbrev scM1_0 : Memref sig .tc .vmem S2048x256 .f32 := Memref.whole cc1_scratch0
abbrev scM1_1 : Memref sig .tc .vmem S2048x256 .bf16 := Memref.whole cc1_scratch1
/-- Views through which the contents of the result's staging buffer and of the scratch buffers are stated. -/
abbrev VO1_5 : View sig .tc .vmem S1x1024x256 .f32 := (Memref.whole cc1_stg5_0 : Memref sig .tc .vmem S1x1024x256 .f32).view
abbrev VS1_0 : View sig .tc .vmem S2048x256 .f32 := scM1_0.view
abbrev VS1_1 : View sig .tc .vmem S2048x256 .bf16 := scM1_1.view

/-- The first kernel's four staging buffers, which the second region holds at anything. -/
def idle0 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- The second region's invariant as the launch hands it over: the first kernel's staging buffers and the two scratch
    buffers at anything, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.KernelIdeal.Fr

end
-- ==== Proof.KIRun0.lean ====
/-
  The degree kernel's body at one grid point, at any float instance: on whole staging buffers — the block of 512 rows
  of `adj` at its contents, the output column at anything — it runs to the end leaving the input as it was and the
  output column holding its one store: the row sums plus one, their reciprocal square roots, infinite values replaced by 0.
-/
import proofs.«171897_j16801912062239_2_alg».proof.Proof.KIBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's two accesses: the whole input block and the whole output column. -/
abbrev r0_in : Rect S1x512x2048 := Rect.unit (s := S1x512x2048) ![0, 0, 0] S1x512x2048.size inb_S1x512x2048_S1x512x2048_0_0_0
abbrev r0_out : Rect S1x512x1 := Rect.unit (s := S1x512x1) ![0, 0, 0] S1x512x1.size inb_S1x512x1_S1x512x1_0_0_0

/-- What the body leaves in the output column's staging buffer, from the input block: its one store. -/
def out0_1 (x0 : Vec F S1x512x2048 .f32) : Vec F S1x512x1 .f32 :=
  View.canon [⟨r0_out, k0_pay1 (View.ld x0 r0_in)⟩]

/-- The store covers the buffer. -/
theorem cover0_1 (p0 : Vec F S1x512x1 .f32) (y : S1x512x1.Idx) :
    ∃ pc ∈ ([⟨r0_out, p0⟩] : List (View.Piece (Elt F) S1x512x1 .f32)), y ∈ pc.1.set :=
  View.cover_of_tiled [⟨r0_out, p0⟩] S1x512x1.size (by rfl) y

set_option maxHeartbeats 1000000 in
/-- The body's triple. -/
theorem sound_kernel0 (c : Dev nD) (E : Set ℕ) (i : grid0.Coords) (arg2 : Memref sig .tc .vmem S1x512x2048 .f32) (harg2 : arg2.IsWhole) (arg3 : Memref sig .tc .vmem S1x512x1 .f32) (harg3 : arg3.IsWhole)
    (x0 : Vec F S1x512x2048 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__deg_kernel i arg2 harg2 arg3 harg3) K := by
  simp only [cc0__deg_kernel_eq_skeleton]; unfold cc0__deg_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

end Cert.KernelIdeal.Fr

end
-- ==== Proof.KIRun1A.lean ====
/-
  The aggregate kernel's body at the FIRST row tile of a batch (the branch taken), at any float instance: on whole
  staging buffers at their contents and the two scratch buffers at anything, it runs to the end leaving every input as
  it was, the first scratch buffer holding the batch's linear layer `x W` (one store), the second the same scaled row by
  row by the normaliser (one store), and the result tile holding its one store, which reads both scratch buffers back.
  The pieces are found by running the body.
-/
import proofs.«171897_j16801912062239_2_alg».proof.Proof.KIBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the result tile and the two scratch buffers end with, with the body's triple in this case. -/
noncomputable def kernelRun1_A (c : Dev nD) (i : grid1.Coords)
    (arg2 : Memref sig .tc .vmem S1x1024x2048 .f32) (harg2 : arg2.IsWhole) (arg3 : Memref sig .tc .vmem S1x2048x256 .f32) (harg3 : arg3.IsWhole)
    (arg4 : Memref sig .tc .vmem S256x256 .f32) (harg4 : arg4.IsWhole) (arg5 : Memref sig .tc .vmem S1x2048x1 .f32) (harg5 : arg5.IsWhole)
    (arg6 : Memref sig .tc .vmem S256 .f32) (harg6 : arg6.IsWhole) (arg7 : Memref sig .tc .vmem S1x1024x256 .f32) (harg7 : arg7.IsWhole)
    (arg8 : Memref sig .tc .vmem S2048x256 .f32) (harg8 : arg8.IsWhole) (arg9 : Memref sig .tc .vmem S2048x256 .bf16) (harg9 : arg9.IsWhole)
    (hc0 : cond1_0 i)
    (x0 : Vec F S1x1024x2048 .f32) (x1 : Vec F S1x2048x256 .f32) (x2 : Vec F S256x256 .f32) (x3 : Vec F S1x2048x1 .f32) (x4 : Vec F S256 .f32) :
    Σ' (L5 : List (View.Piece (Elt F) S1x1024x256 .f32)) (LS0 : List (View.Piece (Elt F) S2048x256 .f32)), { LS1 : List (View.Piece (Elt F) S2048x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9) K } := by
  refine ⟨?_, ?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H8]
    · iexists _; iexact H8
    iexists _; iexact H9

end Cert.KernelIdeal.Fr

end
-- ==== Proof.KIRun1B.lean ====
/-
  The aggregate kernel's body at a point that is NOT the first row tile of its batch (the branch not taken), at any
  float instance: on whole staging buffers at their contents, the two scratch buffers at the contents `xs0` (the batch's
  linear layer) and `xs1` (the same scaled by the normaliser) the first tile left, it runs to the end leaving every
  input and both scratch buffers as they were and the result tile holding its one store. The store's piece is found by
  running the body; the normaliser rows it reads come through a squeezed view of the column's buffer.
-/
import proofs.«171897_j16801912062239_2_alg».proof.Proof.KIBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the result tile ends with, with the body's triple in this case. -/
noncomputable def kernelRun1_B (c : Dev nD) (i : grid1.Coords)
    (arg2 : Memref sig .tc .vmem S1x1024x2048 .f32) (harg2 : arg2.IsWhole) (arg3 : Memref sig .tc .vmem S1x2048x256 .f32) (harg3 : arg3.IsWhole)
    (arg4 : Memref sig .tc .vmem S256x256 .f32) (harg4 : arg4.IsWhole) (arg5 : Memref sig .tc .vmem S1x2048x1 .f32) (harg5 : arg5.IsWhole)
    (arg6 : Memref sig .tc .vmem S256 .f32) (harg6 : arg6.IsWhole) (arg7 : Memref sig .tc .vmem S1x1024x256 .f32) (harg7 : arg7.IsWhole)
    (arg8 : Memref sig .tc .vmem S2048x256 .f32) (harg8 : arg8.IsWhole) (arg9 : Memref sig .tc .vmem S2048x256 .bf16) (harg9 : arg9.IsWhole)
    (hc0 : ¬cond1_0 i)
    (x0 : Vec F S1x1024x2048 .f32) (x1 : Vec F S1x2048x256 .f32) (x2 : Vec F S256x256 .f32) (x3 : Vec F S1x2048x1 .f32) (x4 : Vec F S256 .f32)
    (xs0 : Vec F S2048x256 .f32) (xs1 : Vec F S2048x256 .bf16) :
    { L5 : List (View.Piece (Elt F) S1x1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ owns (c : Thread nD τ) arg8 fullShare xs0 ∗ owns (c : Thread nD τ) arg9 fullShare xs1) -∗ K ⟨⟩))
          ⊢ wp frame (wpE (defs₀ (F := F)) Variants.none c none) E (cc1__main_kernel i arg2 harg2 arg3 harg3 arg4 harg4 arg5 harg5 arg6 harg6 arg7 harg7 arg8 harg8 arg9 harg9) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hf8; obtain rfl := harg9.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H8]
    · iexists _; isplitr; · ipureintro; exact harg8.read_unread _
      iexact H8
    iexists _; isplitr; · ipureintro; exact harg9.read_unread _
    iexact H9

end Cert.KernelIdeal.Fr

end
-- ==== Proof.KIData.lean ====
/-
  The proof data of the two kernel regions, at any float instance and at a parameter `V` (the buffers' contents when a
  region is entered), and the two body obligations.

  Region 0 (the degree kernel): after the body at a point the input's buffer holds its block and the output column's
  buffer the body's one store of it.

  Region 1 (the aggregate kernel) carries two scratch buffers across the points of a batch: the body fills them at the
  batch's first row tile (the even point) and reads them at both tiles. So what they hold after ANY point is what the
  even point of that point's batch stored, a function of that batch's blocks (`sAt`); the region invariant after a point
  holds them at those contents, and before the first point at anything. The result tile's buffer after a point holds the
  body's one store (`outAt`), in the first-tile case or the other.
-/
import proofs.«171897_j16801912062239_2_alg».proof.Proof.KIRun0
import proofs.«171897_j16801912062239_2_alg».proof.Proof.KIRun1A
import proofs.«171897_j16801912062239_2_alg».proof.Proof.KIRun1B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 -/

/-- The proof data of the degree kernel's pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

/-! # Region 1 -/

/-- The first row tile of point `t`'s batch. -/
def evenPt (t : Fin cfg1.N) : Fin cfg1.N := ⟨t.val - t.val % 2, lt_of_le_of_lt (Nat.sub_le _ _) t.isLt⟩
theorem evenPt_cond (t : Fin cfg1.N) : cond1_0 (grid1.coords (evenPt t)) :=
  (hcond1_0 _).mpr (by show (t.val - t.val % 2) % 2 = 0; omega)

/-- What the first-tile body at the even point `t` leaves in the two scratch buffers: its stores read back. -/
def sAtA (c : Dev nD) (t : Fin cfg1.N) (h : cond1_0 (grid1.coords t)) : Vec F S2048x256 .f32 × Vec F S2048x256 .bf16 :=
  (VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 0 t) (iblk1 V c 1 t) (iblk1 V c 2 t) (iblk1 V c 3 t) (iblk1 V c 4 t)).2.1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 0 t) (iblk1 V c 1 t) (iblk1 V c 2 t) (iblk1 V c 3 t) (iblk1 V c 4 t)).2.2.1))

theorem sAtA_congr (c : Dev nD) (t t' : Fin cfg1.N) (e : t = t') (h : cond1_0 (grid1.coords t)) (h' : cond1_0 (grid1.coords t')) :
    sAtA V c t h = sAtA V c t' h' := by subst e; rfl

/-- What the two scratch buffers hold after point `t`: what the first tile of its batch stored. -/
def sAt (c : Dev nD) (t : Fin cfg1.N) : Vec F S2048x256 .f32 × Vec F S2048x256 .bf16 := sAtA V c (evenPt t) (evenPt_cond t)

theorem sAt_even (c : Dev nD) (t : Fin cfg1.N) (h : t.val % 2 = 0) : sAt V c t = sAtA V c t ((hcond1_0 t).mpr h) :=
  sAtA_congr V c _ _ (Fin.ext (by show t.val - t.val % 2 = t.val; omega)) _ _

theorem sAt_odd (c : Dev nD) (t : Fin cfg1.N) (h : ¬ t.val % 2 = 0) (hlt : t.val - 1 < cfg1.N) : sAt V c ⟨t.val - 1, hlt⟩ = sAt V c t :=
  sAtA_congr V c _ _ (Fin.ext (by show (t.val - 1) - (t.val - 1) % 2 = t.val - t.val % 2; omega)) _ _

/-- The first-tile body's stores cover each scratch buffer and the result tile; the other case's store covers the result tile. -/
theorem scover1_A_0 (c : Dev nD) (t : Fin cfg1.N) (h : cond1_0 (grid1.coords t)) (y : S2048x256.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 0 t) (iblk1 V c 1 t) (iblk1 V c 2 t) (iblk1 V c 3 t) (iblk1 V c 4 t)).2.1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 0 t) (iblk1 V c 1 t) (iblk1 V c 2 t) (iblk1 V c 3 t) (iblk1 V c 4 t)).2.1 S2048x256.size (by sl_kernel_rfl) y
theorem scover1_A_1 (c : Dev nD) (t : Fin cfg1.N) (h : cond1_0 (grid1.coords t)) (y : S2048x256.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 0 t) (iblk1 V c 1 t) (iblk1 V c 2 t) (iblk1 V c 3 t) (iblk1 V c 4 t)).2.2.1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 0 t) (iblk1 V c 1 t) (iblk1 V c 2 t) (iblk1 V c 3 t) (iblk1 V c 4 t)).2.2.1 S2048x256.size (by sl_kernel_rfl) y
theorem cover1_A_5 (c : Dev nD) (t : Fin cfg1.N) (h : cond1_0 (grid1.coords t)) (y : S1x1024x256.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 0 t) (iblk1 V c 1 t) (iblk1 V c 2 t) (iblk1 V c 3 t) (iblk1 V c 4 t)).1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 0 t) (iblk1 V c 1 t) (iblk1 V c 2 t) (iblk1 V c 3 t) (iblk1 V c 4 t)).1 S1x1024x256.size (by sl_kernel_rfl) y
theorem cover1_B_5 (c : Dev nD) (t : Fin cfg1.N) (h : ¬cond1_0 (grid1.coords t)) (xs0 : Vec F S2048x256 .f32) (xs1 : Vec F S2048x256 .bf16) (y : S1x1024x256.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 0 t) (iblk1 V c 1 t) (iblk1 V c 2 t) (iblk1 V c 3 t) (iblk1 V c 4 t) xs0 xs1).1, y ∈ pc.1.set :=
  View.cover_of_tiledL (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 0 t) (iblk1 V c 1 t) (iblk1 V c 2 t) (iblk1 V c 3 t) (iblk1 V c 4 t) xs0 xs1).1 S1x1024x256.size (by sl_kernel_rfl) y

/-- What the result tile's staging buffer holds after the body at point `t`. -/
def outAt (c : Dev nD) (t : Fin cfg1.N) : Vec F S1x1024x256 .f32 :=
  if h : t.val % 2 = 0 then VO1_5.read (Elt F) (VO1_5.writes (Elt F) VO1_5.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h) (iblk1 V c 0 t) (iblk1 V c 1 t) (iblk1 V c 2 t) (iblk1 V c 3 t) (iblk1 V c 4 t)).1)
  else VO1_5.read (Elt F) (VO1_5.writes (Elt F) VO1_5.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun hc => h ((hcond1_0 t).mp hc)) (iblk1 V c 0 t) (iblk1 V c 1 t) (iblk1 V c 2 t) (iblk1 V c 3 t) (iblk1 V c 4 t) (sAt V c t).1 (sAt V c t).2).1)

theorem outAt_even (c : Dev nD) (t : Fin cfg1.N) (h : t.val % 2 = 0) :
    outAt V c t = VO1_5.read (Elt F) (VO1_5.writes (Elt F) VO1_5.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h) (iblk1 V c 0 t) (iblk1 V c 1 t) (iblk1 V c 2 t) (iblk1 V c 3 t) (iblk1 V c 4 t)).1) := by
  unfold outAt; exact dif_pos h
theorem outAt_odd (c : Dev nD) (t : Fin cfg1.N) (h : ¬ t.val % 2 = 0) :
    outAt V c t = VO1_5.read (Elt F) (VO1_5.writes (Elt F) VO1_5.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun hc => h ((hcond1_0 t).mp hc)) (iblk1 V c 0 t) (iblk1 V c 1 t) (iblk1 V c 2 t) (iblk1 V c 3 t) (iblk1 V c 4 t) (sAt V c t).1 (sAt V c t).2).1) := by
  unfold outAt; exact dif_neg h

/-- The region invariant before position `n`: before the first point the launch's (every scoped buffer at anything);
    afterwards the two scratch buffers at what the point before left, the first kernel's staging buffers at anything, and
    the generator register at some state. -/
def PhiS (c : Dev nD) : (n : ℕ) → n ≤ cfg1.N → sProp 𝕄
  | 0, _ => Pipeline.ΦA spec1 c
  | n + 1, hn => iprop(iprop(idle0 c ∗ owns (c : Thread nD τ) scM1_0 fullShare (sAt V c ⟨n, hn⟩).1 ∗ owns (c : Thread nD τ) scM1_1 fullShare (sAt V c ⟨n, hn⟩).2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (t : Fin cfg1.N) :
    PhiS V c (t.val + 1) t.isLt = iprop(iprop(idle0 c ∗ owns (c : Thread nD τ) scM1_0 fullShare (sAt V c t).1 ∗ owns (c : Thread nD τ) scM1_1 fullShare (sAt V c t).2) ∗ (∃ r, prngReg c r)) := rfl
theorem PhiS_pos (c : Dev nD) (n : ℕ) (h : n ≤ cfg1.N) (hz : n ≠ 0) :
    PhiS V c n h = iprop(iprop(idle0 c ∗ owns (c : Thread nD τ) scM1_0 fullShare (sAt V c ⟨n - 1, by omega⟩).1 ∗ owns (c : Thread nD τ) scM1_1 fullShare (sAt V c ⟨n - 1, by omega⟩).2) ∗ (∃ r, prngReg c r)) := by
  cases n with
  | zero => exact absurd rfl hz
  | succ n => rfl

/-- The proof data of the aggregate kernel's pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4800000 in
/-- The body at any point: the inputs' buffers hold their blocks; at an even point the first-tile run applies from
    scratch buffers at anything and leaves them at `sAt`; at an odd point the invariant hands over the scratch buffers
    at what the even point before left, which is `sAt` of this point too, and the other run leaves them so. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3, after1_4, after1_5]
  have hN : t.val < 16 := lt_of_lt_of_eq t.isLt (show cfg1.N = 16 from N_1)
  by_cases h0 : t.val % 2 = 0
  · rw [outAt_even V c t h0, sAt_even V c t h0]
    unfold sAtA; dsimp only
    have hrun := (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (iblk1 V c 0 t) (iblk1 V c 1 t) (iblk1 V c 2 t) (iblk1 V c 3 t) (iblk1 V c 4 t)).2.2.2 Set.univ
    by_cases hz : t.val = 0
    · rw [PhiS_castSucc V c t, PhiS_zero V c _ _ hz, PhiA1_eq]
      iintro ⟨⟨⟨HA, HB, HC, HD, HS0, HS1⟩, Hg⟩, Ho, ⟨%d0, H0⟩, ⟨%d1, H1⟩, ⟨%d2, H2⟩, ⟨%d3, H3⟩, ⟨%d4, H4⟩, ⟨%d5, H5⟩⟩
      iapply (hrun _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%e8, HS0⟩, ⟨%e9, HS1⟩⟩
      isplitl [HA HB HC HD HS0 HS1 Hg]
      · isplitr [Hg]
        · isplitl [HA HB HC HD]
          · unfold idle0
            isplitl [HA]; · iexact HA
            isplitl [HB]; · iexact HB
            isplitl [HC]; · iexact HC
            iexact HD
          isplitl [HS0]
          · unfold owns; iexists _; isplitr
            swap; · iexact HS0
            ipureintro; exact View.read_writes_of_cover _ _ _ _ _ (scover1_A_0 V c t _)
          · unfold owns; iexists _; isplitr
            swap; · iexact HS1
            ipureintro; exact View.read_writes_of_cover _ _ _ _ _ (scover1_A_1 V c t _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_A_5 V c t _)
    · rw [PhiS_castSucc V c t, PhiS_pos V c _ _ hz]
      iintro ⟨⟨⟨HI, HS0, HS1⟩, Hg⟩, Ho, ⟨%d0, H0⟩, ⟨%d1, H1⟩, ⟨%d2, H2⟩, ⟨%d3, H3⟩, ⟨%d4, H4⟩, ⟨%d5, H5⟩⟩
      iapply (hrun _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      iintro ⟨H0, H1, H2, H3, H4, ⟨%e5, H5⟩, ⟨%e8, HS0⟩, ⟨%e9, HS1⟩⟩
      isplitl [HI HS0 HS1 Hg]
      · isplitr [Hg]
        · isplitl [HI]; · iexact HI
          isplitl [HS0]
          · unfold owns; iexists _; isplitr
            swap; · iexact HS0
            ipureintro; exact View.read_writes_of_cover _ _ _ _ _ (scover1_A_0 V c t _)
          · unfold owns; iexists _; isplitr
            swap; · iexact HS1
            ipureintro; exact View.read_writes_of_cover _ _ _ _ _ (scover1_A_1 V c t _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_A_5 V c t _)
  · have hz : t.val ≠ 0 := fun e => h0 (by rw [e])
    rw [outAt_odd V c t h0]
    have hrun := (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun hc => h0 ((hcond1_0 t).mp hc)) (iblk1 V c 0 t) (iblk1 V c 1 t) (iblk1 V c 2 t) (iblk1 V c 3 t) (iblk1 V c 4 t) (sAt V c t).1 (sAt V c t).2).2 Set.univ
    rw [PhiS_castSucc V c t, PhiS_pos V c _ _ hz, sAt_odd V c t h0 _]
    iintro ⟨⟨⟨HI, HS0, HS1⟩, Hg⟩, Ho, ⟨%d0, H0⟩, ⟨%d1, H1⟩, ⟨%d2, H2⟩, ⟨%d3, H3⟩, ⟨%d4, H4⟩, ⟨%d5, H5⟩⟩
    iapply (hrun _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%e5, H5⟩, HS0, HS1⟩
    isplitl [HI HS0 HS1 Hg]
    · isplitr [Hg]
      · isplitl [HI]; · iexact HI
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_B_5 V c t _ _ _)

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the launch's back: the scratch buffers' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 16 := N_1; omega), PhiA1_eq]
  unfold idle0
  iintro ⟨⟨⟨HA, HB, HC, HD⟩, HS0, HS1⟩, Hg⟩
  isplitl [HA HB HC HD HS0 HS1]
  · isplitl [HA]; · iexact HA
    isplitl [HB]; · iexact HB
    isplitl [HC]; · iexact HC
    isplitl [HD]; · iexact HD
    isplitl [HS0]; · iexists _; iexact HS0
    iexists _; iexact HS1
  iexact Hg

end Cert.KernelIdeal.Fr

end
-- ==== Proof.KIMain.lean ====
/-
  The run of the whole program at any float instance: @main is the degree kernel's region followed by the aggregate
  kernel's. The unscoped buffers' contents at the three boundaries — at launch (`W0`), after the first region (`W1`: the
  normaliser column `main_v0` at what its write-backs leave, everything else as launched) and after the second (`W2`: the
  result `main_v1` at what its write-backs leave) —, each pipeline's proof data at its region's entry contents, the two
  regions as segments of the launch, and the run: every weakly fair execution terminates with the result buffer at
  `W2`'s contents and the four arguments as launched. The frame claim is this run with the result forgotten.
-/
import proofs.«171897_j16801912062239_2_alg».proof.Proof.KIData

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched: a region reads an argument through an input window or does not touch it -/

/-- `x`: input window 1 of region 1, no array of region 0. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 1).trans (((dat1 (V1 m ρ) c).arrAt_in 1 rfl _).trans (A_eq1 (V1 m ρ) c 1))
    _ = W0 m ρ c (Proc.devRef .tc main_arg0) := W1_of_ne m ρ c main_arg0 (by decide)
    _ = m ((c : Thread nD τ).loc main_arg0) := rfl
/-- `adj`: input window 0 of both regions. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl
/-- `W`: input window 2 of region 1. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := (W2_arr m ρ c 2).trans (((dat1 (V1 m ρ) c).arrAt_in 2 rfl _).trans (A_eq1 (V1 m ρ) c 2))
    _ = W0 m ρ c (Proc.devRef .tc main_arg2) := W1_of_ne m ρ c main_arg2 (by decide)
    _ = m ((c : Thread nD τ).loc main_arg2) := rfl
/-- `b`: input window 4 of region 1. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := (W2_arr m ρ c 4).trans (((dat1 (V1 m ρ) c).arrAt_in 4 rfl _).trans (A_eq1 (V1 m ρ) c 4))
    _ = W0 m ρ c (Proc.devRef .tc main_arg3) := W1_of_ne m ρ c main_arg3 (by decide)
    _ = m ((c : Thread nD τ).loc main_arg3) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through both regions: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- REGION 0 over the thread state: its arrays split out of the unscoped buffers at the entry contents and put back at the
    exit contents; the generator register into the region invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: its arrays split out of the unscoped buffers at the entry contents and put back at the
    exit contents; the generator register into the region invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V1 m ρ) c).Φ 0 from rfl]
    have h := hin1 (V1 m ρ) c; unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V1 m ρ) c).Φ (Fin.last cfg1.N) from rfl]
    have h := hout1 (V1 m ρ) c; unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

set_option backward.isDefEq.respectTransparency.types false in
/-- THE RUN: from any memory with zero counters every weakly fair execution of @main terminates, nothing faulting, and
    the final memory holds the result buffer at `W2`'s contents and each argument as launched. -/
theorem run_all : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main
    [.region (reg0 m ρ), .region (reg1 m ρ)]
    (fun c Q => by rw [main_segs adm (pdats m ρ) () 𝒱₀ L lv (reg0 m ρ) (reg1 m ρ) c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

/-- THE FRAME: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_all m ρ)

end Cert.KernelIdeal.Fr

end
-- ==== Proof.Spec.lean ====
/-
  The function both programs compute, over the extended reals, entry by entry.

  For a batch `b`, with `A = adj[b]` (2048 × 2048), `X = x[b]` (2048 × 256):
    deg n   = (∑ m, A n m) + 1                      -- row sums of A + I
    dis n   = deg n ^ (-1/2), with an infinite value replaced by 0
    lin n o = ∑ f, X n f * W f o                     -- the linear layer X W
    out n o = dis n * (∑ m, A n m * (dis m * lin m o)) + (dis n * dis n) * lin n o + bias o
  which is  ∑ m, (dis n * (A + I) n m * dis m) * lin m o + bias o  with the identity's term taken out of the sum
  and the row factor `dis n` taken out of it — equal when every entry is finite.
-/
import Idealize.ShloMosaic.PureOps.Ideal
import Idealize.ShloMosaic.Lib.ValueIdx

noncomputable section

namespace Cert.Spec

open Idealize.ShloMosaic Idealize.ShloMosaic.ValueIdx
open scoped BigOperators

/-- The adjacency tensor, the features, the weights, the bias and the result as functions of their indices. -/
abbrev Adj : Type := (⟨3, ![8, 2048, 2048]⟩ : Shape).Idx → EReal
abbrev Feat : Type := (⟨3, ![8, 2048, 256]⟩ : Shape).Idx → EReal
abbrev Wt : Type := (⟨2, ![256, 256]⟩ : Shape).Idx → EReal
abbrev Bias : Type := (⟨1, ![256]⟩ : Shape).Idx → EReal

/-- The degree of node `n` of batch `b` in `A + I`: the row sum of `A`, plus one. -/
def deg (adj : Adj) (b : Fin 8) (n : Fin 2048) : EReal := (∑ m : Fin 2048, adj (ix3 b n m)) + 1

/-- `deg ^ (-1/2)` as the reciprocal square root, an infinite value (`|·| = ⊤`: a zero or negative degree) replaced by 0. -/
def dis (adj : Adj) (b : Fin 8) (n : Fin 2048) : EReal :=
  if max (Ideal.rsqrt (deg adj b n)) (-(Ideal.rsqrt (deg adj b n))) = ⊤ then 0 else Ideal.rsqrt (deg adj b n)

/-- The linear layer `x W` at node `n`, output feature `o`. -/
def lin (x : Feat) (W : Wt) (b : Fin 8) (n : Fin 2048) (o : Fin 256) : EReal := ∑ f : Fin 256, x (ix3 b n f) * W (ix2 f o)

/-- The result at batch `b`, node `n`, feature `o`: the aggregate over the neighbours with the column factor inside the sum
    and the row factor outside, the identity's term `dis n ^ 2 * lin n o` beside it, plus the bias. -/
def out (x : Feat) (adj : Adj) (W : Wt) (bias : Bias) (b : Fin 8) (n : Fin 2048) (o : Fin 256) : EReal :=
  dis adj b n * (∑ m : Fin 2048, adj (ix3 b n m) * (dis adj b m * lin x W b m o))
    + (dis adj b n * dis adj b n) * lin x W b n o + bias (ix1 o)

/-- The result as an array. -/
def outArr (x : Feat) (adj : Adj) (W : Wt) (bias : Bias) : Feat := fun i => out x adj W bias (i 0) (i 1) (i 2)

/-- Every entry is a real number (neither infinity). -/
def AllReal {ι : Type} (x : ι → EReal) : Prop := ∀ i, ∃ r : ℝ, x i = (r : EReal)

/-! ## The same function as the reference spells it -/

/-- The identity matrix's entry. -/
def eye (n m : Fin 2048) : EReal := if n = m then 1 else 0

/-- The reference's degree: the row sum of `A + I` from a zero initial value. -/
def degR (adj : Adj) (b : Fin 8) (n : Fin 2048) : EReal := 0 + ∑ m : Fin 2048, (adj (ix3 b n m) + eye n m)

/-- The reference's `deg ** -0.5` as the real power, an infinite value replaced by 0. -/
def disR (adj : Adj) (b : Fin 8) (n : Fin 2048) : EReal :=
  if max (Ideal.pow (degR adj b n) (((-(1 / 2) : ℝ)) : EReal)) (-(Ideal.pow (degR adj b n) (((-(1 / 2) : ℝ)) : EReal))) = ⊤ then 0
  else Ideal.pow (degR adj b n) (((-(1 / 2) : ℝ)) : EReal)

/-- The reference's result: the normalised adjacency `(dis n * (A + I) n m) * dis m` against the linear layer, plus the bias. -/
def refOut (x : Feat) (adj : Adj) (W : Wt) (bias : Bias) (b : Fin 8) (n : Fin 2048) (o : Fin 256) : EReal :=
  (∑ m : Fin 2048, ((disR adj b n * (adj (ix3 b n m) + eye n m)) * disR adj b m) * lin x W b m o) + bias (ix1 o)

/-- The reference's result as an array. -/
def refArr (x : Feat) (adj : Adj) (W : Wt) (bias : Bias) : Feat := fun i => refOut x adj W bias (i 0) (i 1) (i 2)

theorem refArr_apply (x : Feat) (adj : Adj) (W : Wt) (bias : Bias) (b : Fin 8) (n : Fin 2048) (o : Fin 256) :
    refArr x adj W bias (ix3 b n o) = refOut x adj W bias b n o := rfl

theorem outArr_apply (x : Feat) (adj : Adj) (W : Wt) (bias : Bias) (b : Fin 8) (n : Fin 2048) (o : Fin 256) :
    outArr x adj W bias (ix3 b n o) = out x adj W bias b n o := rfl

end Cert.Spec

end
-- ==== Proof.SpecCol.lean ====
/-
  The result as the aggregate kernel computes it from a GIVEN normaliser column `d` (an [8, 2048, 1] array), whatever
  that column holds: `d n * (∑ m, A n m * (d m * lin m o)) + (d n * d n) * lin n o + bias o`. With `d = dis` it is `out`.
-/
import proofs.«171897_j16801912062239_2_alg».proof.Proof.Spec

noncomputable section

namespace Cert.Spec

open Idealize.ShloMosaic Idealize.ShloMosaic.ValueIdx
open scoped BigOperators

/-- The normaliser column as an array. -/
abbrev Col : Type := (⟨3, ![8, 2048, 1]⟩ : Shape).Idx → EReal

/-- The normaliser column the degree kernel writes. -/
def disArr (adj : Adj) : Col := fun i => dis adj (i 0) (i 1)

/-- The aggregate kernel's result from a given normaliser column. -/
def outD (x : Feat) (adj : Adj) (W : Wt) (bias : Bias) (d : Col) (b : Fin 8) (n : Fin 2048) (o : Fin 256) : EReal :=
  d (ix3 b n 0) * (∑ m : Fin 2048, adj (ix3 b n m) * (d (ix3 b m 0) * lin x W b m o))
    + (d (ix3 b n 0) * d (ix3 b n 0)) * lin x W b n o + bias (ix1 o)

/-- The same as an array. -/
def outDArr (x : Feat) (adj : Adj) (W : Wt) (bias : Bias) (d : Col) : Feat := fun i => outD x adj W bias d (i 0) (i 1) (i 2)

/-- From the degree kernel's column it is the specification's result. -/
theorem outDArr_disArr (x : Feat) (adj : Adj) (W : Wt) (bias : Bias) : outDArr x adj W bias (disArr adj) = outArr x adj W bias := rfl

end Cert.Spec

end
-- ==== Proof.KIValue.lean ====
/-
  The result buffer after the whole run, at the ideal instance, is the specification's array of the four arguments —
  GIVEN what each region's write-backs leave: the degree kernel's region the normaliser column `disArr adj` in `main_v0`
  (`h0`), the aggregate kernel's region `outDArr` of the arrays it finds (`h1`). Between the two: the second region finds
  the arguments as launched (the first region reads `adj` through an input window and touches no other argument) and the
  column as the first region left it.
-/
import proofs.«171897_j16801912062239_2_alg».proof.Proof.KIMain
import proofs.«171897_j16801912062239_2_alg».proof.Proof.SpecCol

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- After the first region the arguments are as launched, -/
theorem W1_main_arg0 (c : Dev nD) : W1 (F := Ideal) m ρ c (Proc.devRef .tc main_arg0) = m ((c : Thread nD τ).loc main_arg0) :=
  (W1_of_ne m ρ c main_arg0 (by decide)).trans rfl
theorem W1_main_arg1 (c : Dev nD) : W1 (F := Ideal) m ρ c (Proc.devRef .tc main_arg1) = m ((c : Thread nD τ).loc main_arg1) :=
  ((W1_arr m ρ c 0).trans (((dat0 (V0 m ρ) c).arrAt_in 0 rfl _).trans (A_eq0 (V0 m ρ) c 0))).trans rfl
theorem W1_main_arg2 (c : Dev nD) : W1 (F := Ideal) m ρ c (Proc.devRef .tc main_arg2) = m ((c : Thread nD τ).loc main_arg2) :=
  (W1_of_ne m ρ c main_arg2 (by decide)).trans rfl
theorem W1_main_arg3 (c : Dev nD) : W1 (F := Ideal) m ρ c (Proc.devRef .tc main_arg3) = m ((c : Thread nD τ).loc main_arg3) :=
  (W1_of_ne m ρ c main_arg3 (by decide)).trans rfl

/-- and the result of the run is the specification's. -/
theorem main_v1_val_of
    (h0 : ∀ (V : (c : Dev nD) → (b : Ref sig .tc) → Buf (Elt Ideal) ((c : Thread nD τ).loc b)) (c : Dev nD),
      (dat0 (F := Ideal) V c).arrAt 1 cfg0.N = Cert.Spec.disArr (V c main_arg1))
    (h1 : ∀ (V : (c : Dev nD) → (b : Ref sig .tc) → Buf (Elt Ideal) ((c : Thread nD τ).loc b)) (c : Dev nD),
      (dat1 (F := Ideal) V c).arrAt 5 cfg1.N = Cert.Spec.outDArr (V c main_arg0) (V c main_arg1) (V c main_arg2) (V c main_arg3) (V c main_v0))
    (c : Dev nD) :
    W2 (F := Ideal) m ρ c (Proc.devRef .tc main_v1)
      = Cert.Spec.outArr (m ((c : Thread nD τ).loc main_arg0)) (m ((c : Thread nD τ).loc main_arg1)) (m ((c : Thread nD τ).loc main_arg2)) (m ((c : Thread nD τ).loc main_arg3)) := by
  have hcol : V1 (F := Ideal) m ρ c main_v0 = Cert.Spec.disArr (m ((c : Thread nD τ).loc main_arg1)) :=
    (W1_arr m ρ c 1).trans ((h0 (V0 m ρ) c).trans rfl)
  refine (W2_arr m ρ c 5).trans ((h1 (V1 m ρ) c).trans ?_)
  rw [hcol, show V1 (F := Ideal) m ρ c main_arg0 = m ((c : Thread nD τ).loc main_arg0) from W1_main_arg0 m ρ c,
    show V1 (F := Ideal) m ρ c main_arg1 = m ((c : Thread nD τ).loc main_arg1) from W1_main_arg1 m ρ c,
    show V1 (F := Ideal) m ρ c main_arg2 = m ((c : Thread nD τ).loc main_arg2) from W1_main_arg2 m ρ c,
    show V1 (F := Ideal) m ρ c main_arg3 = m ((c : Thread nD τ).loc main_arg3) from W1_main_arg3 m ρ c]
  exact Cert.Spec.outDArr_disArr _ _ _ _

end Cert.KernelIdeal.Fr

end
-- ==== Proof.LibConsts.lean ====
/-
  The float literals both programs spell, as the extended reals their bit patterns denote, and small facts about the
  extended reals used to carry real-valued arrays through sums, products, quotients and square roots.
-/
import Idealize.ShloMosaic.PureOps.Ideal
import Idealize.ShloMosaic.PureOps.Ideal.Laws

noncomputable section

namespace Cert.Consts

open Idealize.ShloMosaic

theorem ofBits_zero : Ideal.ofBits .f32 0x00000000#32 = 0 := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
/-- 65536.0 = 32 · 2048, the number of (graph, node) rows. -/
theorem ofBits_rows : Ideal.ofBits .f32 0x47800000#32 = ((65536 : ℝ) : EReal) := by
  simp [Ideal.ofBits, Ideal.ieee, -EReal.coe_mul]; norm_num
/-- The variance's epsilon is a positive real. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  norm_num

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of a positive real is the real 1 / √r. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- Division by a nonzero real is real division. -/
theorem div_real (x : ℝ) {y : ℝ} (h : y ≠ 0) : Ideal.div (x : EReal) (y : EReal) = ((x / y : ℝ) : EReal) := by
  rw [Ideal.div_coe h, ← EReal.coe_mul]; congr 1; field_simp

end Cert.Consts

end
-- ==== Proof.LibRowForms.lean ====
/-
  Rows and columns of a matrix and of a three-axis array, read at an index, for any sizes.

  A vector of row values kept as a column ([a] viewed [a, 1]) and repeated across the columns ([a, 1] to [a, b]); a middle
  unit axis added to a matrix ([a, b] viewed [a, 1, b]) and an array repeated along a unit axis in the middle ([a, 1, c] to
  [a, b, c]), along a leading one ([1, b, c] to [a, b, c]) or along both ([c] viewed [1, 1, c], then [1, 1, c] to [a, b, c]):
  each result entry is one operand entry, named here by coordinates. And, over the exact extended reals, the sum and the
  maximum of a matrix along its rows: at row r the sum over the columns k of the entry (r, k), and the fold of max over them
  from the accumulator's value.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibRowForms

open Idealize.ShloMosaic Idealize.ShloMosaic.ValueIdx

section Layout
variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` array broadcast to `[a, b]` reads, at `(r, c)`, the operand's row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ =>
    show 0 = if 1 = 1 then 0 else c.val
    rfl

/-- An `[a, b]` array cast to `[a, 1, b]` reads, at `(i, u, j)`, the operand at `(i, j)`. -/
theorem shapeCast_ab_a1b_apply {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show 0 = if 1 = 1 then 0 else j.val
    rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show 0 = if 1 = 1 then 0 else i.val
    rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[c]` array cast to `[1, 1, c]` reads, at `(u, w, k)`, the operand at `k`. -/
theorem shapeCast_c_11c_apply {c : ℕ} (x : (⟨1, ![c]⟩ : Shape).Idx → α) (h : (⟨1, ![c]⟩ : Shape).ShapeCasts ⟨3, ![1, 1, c]⟩)
    (u w : Fin 1) (k : Fin c) : shapeCast ⟨3, ![1, 1, c]⟩ x h (ix3 u w k) = x (ix1 k) :=
  shapeCast_apply x h _ _ (by
    have hu : u.val = 0 := by omega
    have hw : w.val = 0 := by omega
    rw [Shape.rowMajor_val_three, Shape.rowMajor_val_one]
    show k.val = (u.val * 1 + w.val) * c + k.val
    rw [hu, hw]
    simp)

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ =>
    show 0 = if 1 = 1 then 0 else i.val
    rfl
  | ⟨1, _⟩ =>
    show 0 = if 1 = 1 then 0 else j.val
    rfl
  | ⟨2, _⟩ =>
    show k.val = if c = 1 then 0 else k.val
    split
    · have := k.isLt; omega
    · rfl

end Layout

section Reductions
variable {φ : FTy} {a b : ℕ}

/-- Reducing a matrix along its rows, the index of row `r` with column `k` put back is `(r, k)`. -/
theorem lift_row (h : (⟨2, ![a, b]⟩ : Shape).Reduces [(1 : Fin 2)] ⟨1, ![a]⟩) (r : Fin a) (k : Fin b) :
    h.lift (ix1 r) k = ix2 r k :=
  funext fun c => Fin.ext (by
    match c with
    | ⟨0, _⟩ => rfl
    | ⟨1, _⟩ => rfl)

/-- The sum of a matrix along its rows, over the exact extended reals: at row `r`, the sum over the columns. -/
theorem multiReduction_add_row (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (r : Fin a) :
    multiReduction .add [(1 : Fin 2)] ⟨1, ![a]⟩ src acc h hφ hacc (ix1 r) = ∑ k : Fin b, src (ix2 r k) := by
  rw [Ideal.multiReduction_add_single src acc h hφ hacc (ix1 r)]
  exact Finset.sum_congr rfl fun k _ => congrArg src (lift_row h r k)

/-- The maximum of a matrix along its rows, over the exact extended reals: at row `r`, the fold of `max` over the columns
    from the accumulator's value. -/
theorem multiReduction_max_row (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ)
    (r : Fin a) :
    multiReduction .maximumf [(1 : Fin 2)] ⟨1, ![a]⟩ src acc h hφ hacc (ix1 r)
      = (Finset.univ : Finset (Fin b)).fold max (Ideal.ofBits φ acc) fun k => src (ix2 r k) := by
  rw [Ideal.multiReduction_maximumf_single src acc h hφ hacc (ix1 r)]
  exact congrArg (Finset.fold max (Ideal.ofBits φ acc) · (Finset.univ : Finset (Fin b))) (funext fun k => congrArg src (lift_row h r k))

end Reductions

end Cert.LibRowForms

end
-- ==== Proof.KIVal0Pay.lean ====
/-
  The degree kernel's arithmetic at one row.

  The body loads a [1, 512, 2048] block of rows of the adjacency matrix and stores a [1, 512, 1] column. Row `r` of that
  column depends only on row `r` of the block: the sum of its 2048 entries, plus one (the self-loop), then the reciprocal
  square root of that degree, then zero in place of an infinite value (the test is |·| = +∞, with |z| = max z (-z)).
  This is the specification's normaliser `dis` written as a function of the row sum.
-/
import proofs.«171897_j16801912062239_2_alg».proof.Proof.Gen.KernelIdeal.Skeleton
import proofs.«171897_j16801912062239_2_alg».proof.Proof.Spec
import proofs.«171897_j16801912062239_2_alg».proof.Proof.LibConsts
import proofs.«171897_j16801912062239_2_alg».proof.Proof.LibRowForms
import Idealize.ShloMosaic.Lib.ValueLayout

noncomputable section

open scoped BigOperators

namespace Cert.KernelIdeal.Fr.Deg

open Cert.KernelIdeal Cert.KernelIdeal.Gen
open Idealize.ShloMosaic Idealize.ShloMosaic.ValueIdx

/-- The normaliser as a function of a row sum `s` of the adjacency matrix: `(s + 1) ^ (-1/2)`, an infinite value replaced by 0. -/
def normOf (s : EReal) : EReal :=
  if max (Ideal.rsqrt (s + 1)) (-(Ideal.rsqrt (s + 1))) = ⊤ then 0 else Ideal.rsqrt (s + 1)

/-- The specification's normaliser is that function of the row sum. -/
theorem dis_eq_normOf (adj : Cert.Spec.Adj) (b : Fin 8) (n : Fin 2048) :
    Cert.Spec.dis adj b n = normOf (∑ m : Fin 2048, adj (ix3 b n m)) := rfl

/-- The word 0x7F800000 is +∞. -/
theorem ofBits_top : Ideal.ofBits .f32 0x7F800000#32 = ⊤ := by
  simp [Ideal.ofBits, Ideal.ieee]

/-- Selecting on the bit of an equality test is the `if` on the equality. -/
theorem select_oeq (p t a c : EReal) :
    Scalar.select (Ideal.cmp .oeq p t) a c = if p = t then a else c := by
  unfold Scalar.select Ideal.cmp
  by_cases h : p = t
  · simp [h]
  · simp [h]

/-- The row sums of a block of 512 rows, kept as a [512, 1] column. -/
def rowSums (x0 : Vec Ideal S1x512x2048 .f32) : FVec Ideal S512x1 .f32 :=
  shapeCast S512x1
    (multiReduction .add [1] S512 (shapeCast S512x2048 x0 shapeCasts_S1x512x2048_S512x2048) 0x00000000#32
      reduces_S512x2048_S512 (.inl rfl) rfl)
    shapeCasts_S512_S512x1

/-- Row `r` of that column is the sum of row `r` of the block. -/
theorem rowSums_apply (x0 : Vec Ideal S1x512x2048 .f32) (r : Fin 512) :
    rowSums x0 (ix2 r (0 : Fin 1)) = ∑ k : Fin 2048, x0 (ix3 (0 : Fin 1) r k) := by
  unfold rowSums
  refine (Cert.LibRowForms.shapeCast_a_a1_apply _ _ r (0 : Fin 1)).trans ?_
  refine (Cert.LibRowForms.multiReduction_add_row _ _ _ _ _ r).trans ?_
  exact Finset.sum_congr rfl fun k _ => shapeCast_1ab_ab_apply x0 _ r k

/-- From a column `v` of row sums: add one, take the reciprocal square root, replace an infinite value by zero, and view the
    [512, 1] column as [1, 512, 1]. Row `r` of the result is `normOf` of row `r` of `v`. -/
theorem tail_apply (v : FVec Ideal S512x1 .f32) (r : Fin 512) :
    (shapeCast S1x512x1
        (select
          (cmpf .oeq (absf (rsqrt (addf v (broadcast S512x1 (Scalar.ofBits (F := Ideal) .f32 0x3F800000#32)))))
            (broadcast S512x1 (Scalar.ofBits (F := Ideal) .f32 0x7F800000#32)))
          (broadcast S512x1 (Scalar.ofBits (F := Ideal) .f32 0x00000000#32))
          (rsqrt (addf v (broadcast S512x1 (Scalar.ofBits (F := Ideal) .f32 0x3F800000#32)))))
        shapeCasts_S512x1_S1x512x1 : FVec Ideal S1x512x1 .f32) (ix3 (0 : Fin 1) r (0 : Fin 1))
      = normOf (v (ix2 r (0 : Fin 1))) := by
  refine (shapeCast_ab_1ab_apply _ _ (0 : Fin 1) r (0 : Fin 1)).trans ?_
  show Scalar.select
      (Ideal.cmp .oeq
        (max (Ideal.rsqrt (v (ix2 r (0 : Fin 1)) + Ideal.ofBits .f32 0x3F800000#32))
          (-(Ideal.rsqrt (v (ix2 r (0 : Fin 1)) + Ideal.ofBits .f32 0x3F800000#32))))
        (Ideal.ofBits .f32 0x7F800000#32))
      (Ideal.ofBits .f32 0x00000000#32)
      (Ideal.rsqrt (v (ix2 r (0 : Fin 1)) + Ideal.ofBits .f32 0x3F800000#32)) = _
  rw [Cert.Consts.ofBits_one, ofBits_top, Ideal.ofBits_zero_f32, EReal.coe_one, select_oeq]
  rfl

/-- The body's stored value at row `r`: the normaliser of the sum of row `r` of the loaded block. -/
theorem k0_pay1_apply (x0 : Vec Ideal S1x512x2048 .f32) (r : Fin 512) :
    k0_pay1 (F := Ideal) x0 (ix3 (0 : Fin 1) r (0 : Fin 1)) = normOf (∑ k : Fin 2048, x0 (ix3 (0 : Fin 1) r k)) :=
  (tail_apply (rowSums x0) r).trans (congrArg normOf (rowSums_apply x0 r))

end Cert.KernelIdeal.Fr.Deg

end
-- ==== Proof.KIVal0.lean ====
/-
  The degree kernel's region leaves the normaliser column.

  The grid is 8 × 4: point t = 4 b + i is batch b, row block i. At that point the body reads rows 512 i … 512 i + 511 of batch
  b of the adjacency matrix (all 2048 columns) and stores, at row r of its [1, 512, 1] block, the normaliser of the sum of row
  512 i + r. The block is written back to rows 512 i … 512 i + 511 of batch b of the column, so what a point writes back is
  that block of the specification's column `dis`. The 32 blocks tile the [8, 2048, 1] column — row n of batch b lies in the
  block of point 4 b + n / 512 — so after the last point the column is `dis` everywhere.
-/
import proofs.«171897_j16801912062239_2_alg».proof.Proof.KIData
import proofs.«171897_j16801912062239_2_alg».proof.Proof.SpecCol
import proofs.«171897_j16801912062239_2_alg».proof.Proof.KIVal0Pay
import Idealize.ShloMosaic.Lib.Pipeline.Value

set_option maxRecDepth 16384

noncomputable section

open scoped BigOperators

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

namespace Deg

theorem zeros3 : (![0, 0, 0] : Fin 3 → Nat) = fun _ => 0 := funext fun a => by fin_cases a <;> rfl

/-- The body's stored value at any index of its [1, 512, 1] block: only the row coordinate matters. -/
theorem k0_pay1_row (x0 : Vec Ideal S1x512x2048 .f32) (j : S1x512x1.Idx) :
    k0_pay1 (F := Ideal) x0 j = normOf (∑ k : Fin 2048, x0 (ix3 (0 : Fin 1) (j 1) k)) := by
  obtain ⟨u, r, w, rfl⟩ : ∃ (u : Fin 1) (r : Fin 512) (w : Fin 1), j = ix3 u r w := ⟨j 0, j 1, j 2, eq_ix3 j⟩
  obtain rfl : u = 0 := Subsingleton.elim _ _
  obtain rfl : w = 0 := Subsingleton.elim _ _
  exact k0_pay1_apply x0 r

/-- The two block index maps over the grid: the input block and the output block sit at the same batch and the same row block,
    the input block spans all the columns, and point t is batch t / 4, row block t % 4. -/
theorem idx_facts : ∀ t : Fin cfg0.N,
    win0_0.index t (0 : Fin 3) = win0_1.index t (0 : Fin 3)
    ∧ win0_0.index t (1 : Fin 3) = win0_1.index t (1 : Fin 3)
    ∧ win0_0.index t (2 : Fin 3) = 0
    ∧ win0_1.index t (0 : Fin 3) = t.val / 4
    ∧ win0_1.index t (1 : Fin 3) = t.val % 4
    ∧ win0_1.index t (2 : Fin 3) = 0 :=
  (by decide +kernel : ∀ t : Fin grid0.N, _)

end Deg

open Deg in
/-- What point t writes back is its block of the specification's column. -/
theorem flushed0_1_eq (c : Dev nD) (t : Fin cfg0.N) :
    (dat0 (F := Ideal) V c).flushed 1 t
      = ((cfg0.win 1).blk t).view.read (Elt Ideal) (Cert.Spec.disArr (V c main_arg1)) := by
  show (cfg0.win 1).cut (grid0.coords t) ((dat0 V c).after 1 t) = _
  rw [after0_1]
  unfold out0_1
  rw [View.canon_unit_zero zeros3]
  simp only [View.ld_unit_zero (S := S1x512x2048) zeros3]
  obtain ⟨e0, e1, e2, e3, e4, e5⟩ := idx_facts t
  funext j
  show k0_pay1 (F := Ideal) (iblk0 V c 0 t) j = Cert.Spec.disArr (V c main_arg1) (((cfg0.win 1).blk t).view.emb j)
  refine (k0_pay1_row (iblk0 V c 0 t) j).trans ?_
  show normOf _ = normOf (∑ m : Fin 2048, V c main_arg1 (ix3 ((((cfg0.win 1).blk t).view.emb j) 0) ((((cfg0.win 1).blk t).view.emb j) 1) m))
  refine congrArg normOf (Finset.sum_congr rfl fun k _ => ?_)
  show V c main_arg1 (((cfg0.win 0).blk t).view.emb (ix3 (0 : Fin 1) (j 1) k)) = _
  refine congrArg (V c main_arg1) (funext fun a => Fin.ext ?_)
  have hj0 : (j 0).val < 1 := (j 0).isLt
  match a with
  | ⟨0, _⟩ => show win0_0.index t (0 : Fin 3) * 1 + 1 * (0 : Fin 1).val = win0_1.index t (0 : Fin 3) * 1 + 1 * (j 0).val; rw [e0]; show _ + 1 * 0 = _; omega
  | ⟨1, _⟩ => show win0_0.index t (1 : Fin 3) * 512 + 1 * (j 1).val = win0_1.index t (1 : Fin 3) * 512 + 1 * (j 1).val; rw [e1]
  | ⟨2, _⟩ => show win0_0.index t (2 : Fin 3) * 2048 + 1 * k.val = k.val; rw [e2]; omega

/-- An index of the column is in point t's block iff each coordinate is in the block's range on its axis. -/
theorem mem_blk0_1 (t : Fin cfg0.N) (i : S8x2048x1.Idx) :
    i ∈ ((cfg0.win 1).blk t).view.set
      ↔ ∀ a : Fin 3, win0_1.index t a * S1x512x1.size a ≤ (i a).val ∧ (i a).val < win0_1.index t a * S1x512x1.size a + S1x512x1.size a := by
  show i ∈ ((View.whole main_v0).slice (win0_1.rect t)).set ↔ _
  rw [View.set_slice_whole, Rect.mem_set_unit]
  exact Iff.rfl

/-- Every index of the column lies in the block of some point: row n of batch b in that of point 4 b + n / 512. -/
theorem cover0_1_arr (i : S8x2048x1.Idx) :
    ∃ t : Fin cfg0.N, (cfg0.win 1).flush t = true ∧ i ∈ ((cfg0.win 1).blk t).view.set := by
  have hN : cfg0.N = 32 := N_0
  have h0 : (i 0).val < 8 := (i 0).isLt
  have h1 : (i 1).val < 2048 := (i 1).isLt
  have h2 : (i 2).val < 1 := (i 2).isLt
  refine ⟨⟨4 * (i 0).val + (i 1).val / 512, by rw [hN]; omega⟩, flush0_1 _, ?_⟩
  obtain ⟨-, -, -, e3, e4, e5⟩ := Deg.idx_facts ⟨4 * (i 0).val + (i 1).val / 512, by rw [hN]; omega⟩
  rw [mem_blk0_1]
  intro a
  match a with
  | ⟨0, _⟩ =>
    show win0_1.index _ (0 : Fin 3) * 1 ≤ (i 0).val ∧ (i 0).val < win0_1.index _ (0 : Fin 3) * 1 + 1
    rw [e3]; show (4 * (i 0).val + (i 1).val / 512) / 4 * 1 ≤ _ ∧ _ < (4 * (i 0).val + (i 1).val / 512) / 4 * 1 + 1; omega
  | ⟨1, _⟩ =>
    show win0_1.index _ (1 : Fin 3) * 512 ≤ (i 1).val ∧ (i 1).val < win0_1.index _ (1 : Fin 3) * 512 + 512
    rw [e4]; show (4 * (i 0).val + (i 1).val / 512) % 4 * 512 ≤ _ ∧ _ < (4 * (i 0).val + (i 1).val / 512) % 4 * 512 + 512; omega
  | ⟨2, _⟩ =>
    show win0_1.index _ (2 : Fin 3) * 1 ≤ (i 2).val ∧ (i 2).val < win0_1.index _ (2 : Fin 3) * 1 + 1
    rw [e5]; omega

/-- After the degree kernel's region the column holds the specification's normaliser, entry by entry. -/
theorem region0_val (c : Dev nD) :
    (dat0 (F := Ideal) V c).arrAt 1 cfg0.N = Cert.Spec.disArr (V c main_arg1) :=
  (dat0 (F := Ideal) V c).arrAt_eq_of_cover 1 (Cert.Spec.disArr (V c main_arg1))
    (fun t _ => flushed0_1_eq V c t) cover0_1_arr

end Cert.KernelIdeal.Fr

end
-- ==== Proof.KIVal1.lean ====
/-
  From the result tiles to the result array, at the ideal instance: GIVEN that each entry of the tile the aggregate
  kernel's body leaves at point `t` = (batch `t / 2`, row tile `t % 2`) is the specification's entry at that batch, at row
  `1024 (t % 2) + r` and at the tile's feature (`hout`), what point `t` writes back is block `t` of the specification's
  array `outDArr` of the arrays the region finds; every point writes its tile back, and the sixteen tiles — two per batch,
  1024 rows each — tile the [8, 2048, 256] result; so the result array ends holding `outDArr`.
-/
import proofs.«171897_j16801912062239_2_alg».proof.Proof.KIData
import proofs.«171897_j16801912062239_2_alg».proof.Proof.SpecCol
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The specification's array at an index whose coordinates are `b`, `n`, `o`. -/
theorem outDArr_at (x : Cert.Spec.Feat) (adj : Cert.Spec.Adj) (W : Cert.Spec.Wt) (bias : Cert.Spec.Bias) (d : Cert.Spec.Col)
    (i : S8x2048x256.Idx) (b : Fin 8) (n : Fin 2048) (o : Fin 256)
    (hb : b.val = (i 0).val) (hn : n.val = (i 1).val) (ho : o.val = (i 2).val) :
    Cert.Spec.outDArr x adj W bias d i = Cert.Spec.outD x adj W bias d b n o := by
  obtain rfl : b = i 0 := Fin.ext hb
  obtain rfl : n = i 1 := Fin.ext hn
  obtain rfl : o = i 2 := Fin.ext ho
  rfl

/-- The result window's block index at point `t`: batch `t / 2`, row tile `t % 2`, the one feature block. -/
theorem idx_facts5 : ∀ t : Fin cfg1.N, win1_5.index t (0 : Fin 3) = t.val / 2 ∧ win1_5.index t (1 : Fin 3) = t.val % 2
    ∧ win1_5.index t (2 : Fin 3) = 0 :=
  (by decide +kernel : ∀ t : Fin grid1.N, _)

/-- Every (batch, row tile) is some point's. -/
theorem idx_onto5 : ∀ (q0 : Fin 8) (q1 : Fin 2), ∃ t : Fin cfg1.N, win1_5.index t = ![q0.val, q1.val, 0] :=
  (by decide +kernel : ∀ (q0 : Fin 8) (q1 : Fin 2), ∃ t : Fin grid1.N, win1_5.index t = ![q0.val, q1.val, 0])

/-- The entry fact the rest is conditional on. -/
abbrev EntryFact : Prop :=
  ∀ (V : (c : Dev nD) → (b : Ref sig .tc) → Buf (Elt Ideal) ((c : Thread nD τ).loc b)) (c : Dev nD) (t : Fin cfg1.N)
    (j : S1x1024x256.Idx) (b : Fin 8) (n : Fin 2048) (o : Fin 256),
    b.val = t.val / 2 → n.val = 1024 * (t.val % 2) + (j 1).val → o.val = (j 2).val →
    outAt (F := Ideal) V c t j = Cert.Spec.outD (V c main_arg0) (V c main_arg1) (V c main_arg2) (V c main_arg3) (V c main_v0) b n o

/-- What point `t` writes back is block `t` of the specification's array. -/
theorem flushed5_eq (hout : EntryFact) (c : Dev nD) (t : Fin cfg1.N) :
    (dat1 (F := Ideal) V c).flushed 5 t
      = ((cfg1.win 5).blk t).view.read (Elt Ideal) (Cert.Spec.outDArr (V c main_arg0) (V c main_arg1) (V c main_arg2) (V c main_arg3) (V c main_v0)) := by
  show (cfg1.win 5).cut (grid1.coords t) ((dat1 (F := Ideal) V c).after 5 t) = _
  rw [after1_5]
  obtain ⟨e0, e1, e2⟩ := idx_facts5 t
  have hN : t.val < 16 := lt_of_lt_of_eq t.isLt (show cfg1.N = 16 from N_1)
  funext j
  have hj0 : (j 0).val < 1 := (j 0).isLt
  have hj1 : (j 1).val < 1024 := (j 1).isLt
  have hj2 : (j 2).val < 256 := (j 2).isLt
  show outAt (F := Ideal) V c t j = Cert.Spec.outDArr (V c main_arg0) (V c main_arg1) (V c main_arg2) (V c main_arg3) (V c main_v0) (((cfg1.win 5).blk t).view.emb j)
  rw [hout V c t j ⟨t.val / 2, by omega⟩ ⟨1024 * (t.val % 2) + (j 1).val, by omega⟩ ⟨(j 2).val, hj2⟩ rfl rfl rfl]
  refine (outDArr_at _ _ _ _ _ _ _ _ _ ?_ ?_ ?_).symm
  · show t.val / 2 = win1_5.index t (0 : Fin 3) * 1 + 1 * (j 0).val; omega
  · show 1024 * (t.val % 2) + (j 1).val = win1_5.index t (1 : Fin 3) * 1024 + 1 * (j 1).val; omega
  · show (j 2).val = win1_5.index t (2 : Fin 3) * 256 + 1 * (j 2).val; omega

/-- An index of the result is in point `t`'s block iff each coordinate is in the block's range on its axis. -/
theorem mem_blk5 (t : Fin cfg1.N) (i : S8x2048x256.Idx) :
    i ∈ ((cfg1.win 5).blk t).view.set ↔ ∀ a : Fin 3, win1_5.index t a * S1x1024x256.size a ≤ (i a).val ∧ (i a).val < win1_5.index t a * S1x1024x256.size a + S1x1024x256.size a := by
  show i ∈ ((View.whole main_v1).slice (win1_5.rect t)).set ↔ _
  rw [View.set_slice_whole, Rect.mem_set_unit]
  exact Iff.rfl

/-- Every index of the result is in some point's block: the point of its batch and of its row's tile. -/
theorem cover5 (i : S8x2048x256.Idx) : ∃ t : Fin cfg1.N, (cfg1.win 5).flush t = true ∧ i ∈ ((cfg1.win 5).blk t).view.set := by
  have hi0 : (i 0).val < 8 := (i 0).isLt
  have hi1 : (i 1).val < 2048 := (i 1).isLt
  have hi2 : (i 2).val < 256 := (i 2).isLt
  obtain ⟨t, ht⟩ := idx_onto5 ⟨(i 0).val, hi0⟩ ⟨(i 1).val / 1024, by omega⟩
  have q0 : win1_5.index t (0 : Fin 3) = (i 0).val := congrFun ht 0
  have q1 : win1_5.index t (1 : Fin 3) = (i 1).val / 1024 := congrFun ht 1
  have q2 : win1_5.index t (2 : Fin 3) = 0 := congrFun ht 2
  refine ⟨t, flush1_5 t, ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 1024 ≤ (i 1).val ∧ (i 1).val < win1_5.index t (1 : Fin 3) * 1024 + 1024; omega
  | ⟨2, _⟩ => show win1_5.index t (2 : Fin 3) * 256 ≤ (i 2).val ∧ (i 2).val < win1_5.index t (2 : Fin 3) * 256 + 256; omega

/-- The result array after the region: the specification's array of the arrays the region finds. -/
theorem region1_val_of (hout : EntryFact) (c : Dev nD) :
    (dat1 (F := Ideal) V c).arrAt 5 cfg1.N = Cert.Spec.outDArr (V c main_arg0) (V c main_arg1) (V c main_arg2) (V c main_arg3) (V c main_v0) :=
  (dat1 (F := Ideal) V c).arrAt_eq_of_cover 5 _ (fun t _ => flushed5_eq V hout c t) cover5

end Cert.KernelIdeal.Fr

end
-- ==== Proof.KIVal1B.lean ====
/-
  What the aggregate kernel's body leaves in the result tile at a point that is not the first tile of its batch, at the
  ideal instance, read off the store the run found: the body's last value `k1_pay4` of the `adj` tile, the scaled linear
  layer the second scratch buffer carries, the 1024 normaliser rows of this tile, the 1024 rows of the linear layer the
  first scratch buffer carries, and the bias. The normaliser rows come through a squeezed view of the column's
  [1, 2048, 1] buffer: that read is the buffer's contents shape-cast to [2048, 1] and cut at the tile's row offset.
-/
import proofs.«171897_j16801912062239_2_alg».proof.Proof.KIData
import Idealize.ShloMosaic.Lib.Pipeline.Value
import Idealize.ShloMosaic.PureOps.Ideal

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- A whole scratch buffer written with contents `X` reads back `X`. -/
theorem read_scr0 (X : Vec Ideal S2048x256 .f32) :
    View.read (Elt Ideal) (View.whole cc1_scratch0) ((Memref.isWhole_whole cc1_scratch0).unread X) = X :=
  (Memref.isWhole_whole cc1_scratch0).read_unread X
theorem read_scr1 (X : Vec Ideal S2048x256 .bf16) :
    View.read (Elt Ideal) (View.whole cc1_scratch1) ((Memref.isWhole_whole cc1_scratch1).unread X) = X :=
  (Memref.isWhole_whole cc1_scratch1).read_unread X

/-- The 1024 rows of the normaliser column's block `x3` that the tile `i` reads: the block as a [2048, 1] matrix, from the
    tile's row offset. -/
def colRows (i : grid1.Coords) (x3 : Vec Ideal S1x2048x1 .f32) : Vec Ideal S1024x1 .f32 :=
  View.ld (shapeCast S2048x1 x3 shapeCasts_S1x2048x1_S2048x1) (Rect.unit (s := S2048x1) (k1_off1 i) S1024x1.size (k1_off1_inb i))

/-- The 1024 rows of the carried linear layer `xs0` that the tile `i` reads. -/
def linRows (i : grid1.Coords) (xs0 : Vec Ideal S2048x256 .f32) : Vec Ideal S1024x256 .f32 :=
  View.ld xs0 (Rect.unit (s := S2048x256) (k1_off2 i) S1024x256.size (k1_off2_inb i))

/-- The load through the squeezed view, in either case of the body. -/
theorem v13B_eq (c : Dev nD) (i : grid1.Coords) (arg5 : Memref sig .tc .vmem S1x2048x1 .f32) (harg5 : arg5.IsWhole) (x3 : Vec Ideal S1x2048x1 .f32) :
    kernelRun1_B.sl.v13 (F := Ideal) c i arg5 harg5 x3 = colRows i x3 := by
  unfold kernelRun1_B.sl.v13 colRows
  rw [View.readAt_eq_ld, Memref.read_squeeze_slice _ _ _ _ shapeCasts_S1x2048x1_S2048x1, View.readAt_eq_ld, harg5.read_unread,
    View.ld_unit_zero (S := S1x2048x1) zero3]
theorem v13A_eq (c : Dev nD) (i : grid1.Coords) (arg5 : Memref sig .tc .vmem S1x2048x1 .f32) (harg5 : arg5.IsWhole) (x3 : Vec Ideal S1x2048x1 .f32) :
    kernelRun1_A.sl.v13 (F := Ideal) c i arg5 harg5 x3 = colRows i x3 := by
  unfold kernelRun1_A.sl.v13 colRows
  rw [View.readAt_eq_ld, Memref.read_squeeze_slice _ _ _ _ shapeCasts_S1x2048x1_S2048x1, View.readAt_eq_ld, harg5.read_unread,
    View.ld_unit_zero (S := S1x2048x1) zero3]

/-- The result tile after an odd point. -/
theorem outAt_odd_eq (c : Dev nD) (t : Fin cfg1.N) (h : ¬ t.val % 2 = 0) :
    outAt (F := Ideal) V c t
      = k1_pay4 (F := Ideal) (iblk1 V c 0 t) (sAt V c t).2 (colRows (grid1.coords t) (iblk1 V c 3 t))
          (linRows (grid1.coords t) (sAt V c t).1) (iblk1 V c 4 t) := by
  rw [outAt_odd V c t h]
  rw [View.read_writes_eq_canon _ _ _ (cover1_B_5 V c t _ _ _)]
  unfold kernelRun1_B
  dsimp only
  rw [View.canon_unit_zero zero3]
  simp only [View.readAt_eq_ld, Memref.IsWhole.read_unread, View.ld_unit_zero (S := S1x1024x2048) zero3, View.ld_unit_zero (S := S2048x256) zero2, View.ld_unit_zero (S := S256) zero1]
  rw [read_scr0, read_scr1, v13B_eq]
  rfl

end Cert.KernelIdeal.Fr

end
-- ==== Proof.KIVal1A.lean ====
/-
  What the aggregate kernel's body leaves at the first row tile of a batch, at the ideal instance. The first scratch
  buffer holds the linear layer of the batch's feature block, the second the same with
  each row scaled by the normaliser column's entry, and the result tile holds the body's last value of the adjacency
  tile, the second scratch buffer just written, the tile's 1024 normaliser rows, the tile's 1024 rows of the first
  scratch buffer just written, and the bias: the same expression as at the batch's other tile, where the scratch
  buffers are carried instead of written.
-/
import proofs.«171897_j16801912062239_2_alg».proof.Proof.KIVal1B
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-- The two scratch buffers after the first-tile body at an even point: the linear layer, and the linear layer scaled. -/
theorem sAtA_eq (c : Dev nD) (t : Fin cfg1.N) (h : cond1_0 (grid1.coords t)) :
    sAtA (F := Ideal) V c t h
      = (k1_pay2 (F := Ideal) (iblk1 V c 1 t) (iblk1 V c 2 t), k1_pay3 (F := Ideal) (iblk1 V c 1 t) (iblk1 V c 2 t) (iblk1 V c 3 t)) := by
  unfold sAtA
  rw [View.read_writes_junk_eq_canon, View.read_writes_junk_eq_canon]
  unfold kernelRun1_A
  dsimp only
  unfold kernelRun1_A.sl.H8_1 kernelRun1_A.sl.H9_1
  rw [View.canon_unit_zero zero2, View.canon_unit_zero zero2]
  simp only [View.readAt_eq_ld, Memref.IsWhole.read_unread, View.ld_unit_zero (S := S1x2048x256) zero3,
    View.ld_unit_zero (S := S256x256) zero2, View.ld_unit_zero (S := S1x2048x1) zero3]

/-- After any point they hold what the first tile of the point's batch left. -/
theorem sAt_eq (c : Dev nD) (t : Fin cfg1.N) :
    sAt (F := Ideal) V c t
      = (k1_pay2 (F := Ideal) (iblk1 V c 1 (evenPt t)) (iblk1 V c 2 (evenPt t)),
         k1_pay3 (F := Ideal) (iblk1 V c 1 (evenPt t)) (iblk1 V c 2 (evenPt t)) (iblk1 V c 3 (evenPt t))) :=
  sAtA_eq V c (evenPt t) (evenPt_cond t)

/-- The result tile after an even point. -/
theorem outAt_even_eq (c : Dev nD) (t : Fin cfg1.N) (h : t.val % 2 = 0) :
    outAt (F := Ideal) V c t
      = k1_pay4 (F := Ideal) (iblk1 V c 0 t) (sAt V c t).2 (colRows (grid1.coords t) (iblk1 V c 3 t))
          (linRows (grid1.coords t) (sAt V c t).1) (iblk1 V c 4 t) := by
  rw [outAt_even V c t h, sAt_even V c t h]
  rw [View.read_writes_junk_eq_canon]
  unfold sAtA
  unfold kernelRun1_A
  dsimp only
  rw [View.canon_unit_zero zero3, v13A_eq]
  unfold kernelRun1_A.sl.v8 kernelRun1_A.sl.v16 View.readCov linRows
  simp only [View.readAt_eq_ld, Memref.IsWhole.read_unread, View.ld_unit_zero (S := S1x1024x2048) zero3,
    View.ld_unit_zero (S := S2048x256) zero2, View.ld_unit_zero (S := S256) zero1]

end Cert.KernelIdeal.Fr

end
-- ==== Proof.KIVal1Blk.lean ====
/-
  The aggregate kernel's input blocks read at an index. Point t of the 8 × 2 grid is batch t / 2, row tile t % 2: the
  adjacency block holds rows 1024 (t % 2) … of batch t / 2, the feature and normaliser blocks the whole batch t / 2,
  the weights and the bias the whole arrays. A block's entry is the array's entry at block index × block size + the
  coordinate inside the block, on every axis.
-/
import proofs.«171897_j16801912062239_2_alg».proof.Proof.KIBase
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.ShloMosaic.Pipeline (Dat Cfg Window BodyObligation cellOf)
open Idealize.ShloMosaic.ValueIdx

variable {F : FTy → Type} [FloatOps F]
variable (V : (c : Dev nD) → (b : Ref sig .tc) → Buf (Elt F) ((c : Thread nD τ).loc b))

/-- The printed index maps over the grid: the batch is t / 2 and the row tile t % 2. -/
theorem idx_facts1 : ∀ t : Fin cfg1.N,
    win1_0.index t (0 : Fin 3) = t.val / 2 ∧ win1_0.index t (1 : Fin 3) = t.val % 2 ∧ win1_0.index t (2 : Fin 3) = 0
    ∧ win1_1.index t (0 : Fin 3) = t.val / 2 ∧ win1_1.index t (1 : Fin 3) = 0 ∧ win1_1.index t (2 : Fin 3) = 0
    ∧ win1_2.index t (0 : Fin 2) = 0 ∧ win1_2.index t (1 : Fin 2) = 0
    ∧ win1_3.index t (0 : Fin 3) = t.val / 2 ∧ win1_3.index t (1 : Fin 3) = 0 ∧ win1_3.index t (2 : Fin 3) = 0
    ∧ win1_4.index t (0 : Fin 1) = 0
    ∧ ((grid1.coords t) 1).val = t.val % 2 :=
  (by decide +kernel : ∀ t : Fin grid1.N, _)

/-- The adjacency block: row r of the tile is row 1024 (t % 2) + r of the batch. -/
theorem iblk1_0_apply (c : Dev nD) (t : Fin cfg1.N) (u : Fin 1) (r : Fin 1024) (m : Fin 2048) (b : Fin 8) (n : Fin 2048)
    (hb : b.val = t.val / 2) (hn : n.val = 1024 * (t.val % 2) + r.val) :
    (iblk1 V c 0 t : Vec F S1x1024x2048 .f32) (ix3 u r m) = V c main_arg1 (ix3 b n m) := by
  obtain ⟨e0, e1, e2, -⟩ := idx_facts1 t
  show V c main_arg1 (((cfg1.win 0).blk t).view.emb (ix3 u r m)) = V c main_arg1 (ix3 b n m)
  refine congrArg (V c main_arg1) (funext fun a => Fin.ext ?_)
  have hu : u.val = 0 := by omega
  match a with
  | ⟨0, _⟩ => show win1_0.index t (0 : Fin 3) * 1 + 1 * u.val = b.val; omega
  | ⟨1, _⟩ => show win1_0.index t (1 : Fin 3) * 1024 + 1 * r.val = n.val; omega
  | ⟨2, _⟩ => show win1_0.index t (2 : Fin 3) * 2048 + 1 * m.val = m.val; omega

/-- The feature block is the whole batch. -/
theorem iblk1_1_apply (c : Dev nD) (t : Fin cfg1.N) (u : Fin 1) (m : Fin 2048) (f : Fin 256) (b : Fin 8)
    (hb : b.val = t.val / 2) :
    (iblk1 V c 1 t : Vec F S1x2048x256 .f32) (ix3 u m f) = V c main_arg0 (ix3 b m f) := by
  obtain ⟨-, -, -, e0, e1, e2, -⟩ := idx_facts1 t
  show V c main_arg0 (((cfg1.win 1).blk t).view.emb (ix3 u m f)) = V c main_arg0 (ix3 b m f)
  refine congrArg (V c main_arg0) (funext fun a => Fin.ext ?_)
  have hu : u.val = 0 := by omega
  match a with
  | ⟨0, _⟩ => show win1_1.index t (0 : Fin 3) * 1 + 1 * u.val = b.val; omega
  | ⟨1, _⟩ => show win1_1.index t (1 : Fin 3) * 2048 + 1 * m.val = m.val; omega
  | ⟨2, _⟩ => show win1_1.index t (2 : Fin 3) * 256 + 1 * f.val = f.val; omega

/-- The weights' block is the weights. -/
theorem iblk1_2_apply (c : Dev nD) (t : Fin cfg1.N) (f : Fin 256) (o : Fin 256) :
    (iblk1 V c 2 t : Vec F S256x256 .f32) (ix2 f o) = V c main_arg2 (ix2 f o) := by
  obtain ⟨-, -, -, -, -, -, e0, e1, -⟩ := idx_facts1 t
  show V c main_arg2 (((cfg1.win 2).blk t).view.emb (ix2 f o)) = V c main_arg2 (ix2 f o)
  refine congrArg (V c main_arg2) (funext fun a => Fin.ext ?_)
  match a with
  | ⟨0, _⟩ => show win1_2.index t (0 : Fin 2) * 256 + 1 * f.val = f.val; omega
  | ⟨1, _⟩ => show win1_2.index t (1 : Fin 2) * 256 + 1 * o.val = o.val; omega

/-- The normaliser column's block is the whole batch's column. -/
theorem iblk1_3_apply (c : Dev nD) (t : Fin cfg1.N) (u : Fin 1) (m : Fin 2048) (z : Fin 1) (b : Fin 8)
    (hb : b.val = t.val / 2) :
    (iblk1 V c 3 t : Vec F S1x2048x1 .f32) (ix3 u m z) = V c main_v0 (ix3 b m z) := by
  obtain ⟨-, -, -, -, -, -, -, -, e0, e1, e2, -⟩ := idx_facts1 t
  show V c main_v0 (((cfg1.win 3).blk t).view.emb (ix3 u m z)) = V c main_v0 (ix3 b m z)
  refine congrArg (V c main_v0) (funext fun a => Fin.ext ?_)
  have hu : u.val = 0 := by omega
  match a with
  | ⟨0, _⟩ => show win1_3.index t (0 : Fin 3) * 1 + 1 * u.val = b.val; omega
  | ⟨1, _⟩ => show win1_3.index t (1 : Fin 3) * 2048 + 1 * m.val = m.val; omega
  | ⟨2, _⟩ => show win1_3.index t (2 : Fin 3) * 1 + 1 * z.val = z.val; omega

/-- The bias's block is the bias. -/
theorem iblk1_4_apply (c : Dev nD) (t : Fin cfg1.N) (o : Fin 256) :
    (iblk1 V c 4 t : Vec F S256 .f32) (ix1 o) = V c main_arg3 (ix1 o) := by
  obtain ⟨-, -, -, -, -, -, -, -, -, -, -, e0, -⟩ := idx_facts1 t
  show V c main_arg3 (((cfg1.win 4).blk t).view.emb (ix1 o)) = V c main_arg3 (ix1 o)
  refine congrArg (V c main_arg3) (funext fun a => Fin.ext ?_)
  match a with
  | ⟨0, _⟩ => show win1_4.index t (0 : Fin 1) * 256 + 1 * o.val = o.val; omega

end Cert.KernelIdeal.Fr

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«171897_j16801912062239_2_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.LibColumn.lean ====
/-
  Column vectors read at an index, for any sizes.

  A keepdims reduction leaves an `[a]` vector that is viewed as an `[a, 1]` column, a column is broadcast across `b`
  lanes, and a column is flattened back to `[a]`: each of these reads the operand at the row's one entry. A lane
  maximum of an `[a, b]` array from the word for -∞, at the extended reals, is the fold of `max` over the row's `b`
  entries from that word's value, and a lane sum from the zero word is the row's sum.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.LibColumn

open Idealize.ShloMosaic ValueIdx

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector viewed as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column flattened to `[a]` reads, at `p`, the column's entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- Over result index `p`, the source index of a reduction of `[a, b]` along its lanes with lane coordinate `k` is `(p, k)`. -/
theorem lift_rows {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A lane maximum of an f32 `[a, b]` array from the word of -∞, at the extended reals: the fold of `max` over the row. -/
theorem rowMax_f32 {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  refine Finset.fold_congr fun k _ => ?_
  exact congrArg src (lift_rows h p k)

/-- A lane sum of an f32 `[a, b]` array from the zero word, at the extended reals: the row's sum. -/
theorem rowSum_f32 {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = _
  exact Finset.sum_congr rfl fun k _ => congrArg src (lift_rows h p k)

end Idealize.ShloMosaic.LibColumn

end
-- ==== Proof.KIVal1Pay.lean ====
/-
  The aggregate kernel's three stored values read at an index, over the extended reals.

  The linear layer's product of the feature block (a [1, 2048, 256] block seen as a matrix) with the weights is, at row
  n and feature o, the sum over f of x n f * W f o. The second stored value scales each row of that product by the
  normaliser column's entry of the row. The result tile is, at row r and feature o,
  d r * (sum over m of A r m * s m o) + (d r * d r) * l r o + bias o, with A the adjacency rows, s the scaled product,
  d the normaliser rows and l the rows of the unscaled product. The format changes are the identity over the
  extended reals, so no rounding appears.
-/
import proofs.«171897_j16801912062239_2_alg».proof.Proof.Gen.KernelIdeal.Skeleton
import proofs.«171897_j16801912062239_2_alg».proof.Proof.LibPlainDot
import proofs.«171897_j16801912062239_2_alg».proof.Proof.LibColumn
import Idealize.ShloMosaic.Lib.ValueLayout

set_option maxRecDepth 16384

noncomputable section

namespace Cert.KernelIdeal.Fr

open Cert.KernelIdeal Cert.KernelIdeal.Gen
open Idealize.ShloMosaic Idealize.ShloMosaic.ValueIdx
open scoped BigOperators

/-- The matrix product of the feature block with the weights, at row `n` and feature `o`. -/
theorem k1_pay1_apply (v30 : Vec Ideal S1x2048x256 .f32) (v33 : Vec Ideal S256x256 .f32) (n : Fin 2048) (o : Fin 256) :
    k1_pay1 (F := Ideal) v30 v33 (ix2 n o) = ∑ f : Fin 256, v30 (ix3 (0 : Fin 1) n f) * v33 (ix2 f o) := by
  unfold k1_pay1
  refine (Cert.LibPlainDot.matmul_zero_apply dot_S2048x256_S256x256_S2048x256_1_0_0_1_n_n rfl none _ _ n o).trans ?_
  refine Finset.sum_congr rfl fun f _ => ?_
  rw [truncf_apply, truncf_apply, shapeCast_1ab_ab_apply]

/-- The first stored value is that product. -/
theorem k1_pay2_apply (v30 : Vec Ideal S1x2048x256 .f32) (v33 : Vec Ideal S256x256 .f32) (n : Fin 2048) (o : Fin 256) :
    k1_pay2 (F := Ideal) v30 v33 (ix2 n o) = ∑ f : Fin 256, v30 (ix3 (0 : Fin 1) n f) * v33 (ix2 f o) := by
  unfold k1_pay2
  rw [shapeCast_self, k1_pay1_apply]

/-- The second stored value is the product with each row scaled by the normaliser column's entry of that row. -/
theorem k1_pay3_apply (v30 : Vec Ideal S1x2048x256 .f32) (v33 : Vec Ideal S256x256 .f32) (v36 : Vec Ideal S1x2048x1 .f32)
    (n : Fin 2048) (o : Fin 256) :
    k1_pay3 (F := Ideal) v30 v33 v36 (ix2 n o)
      = v36 (ix3 (0 : Fin 1) n (0 : Fin 1)) * ∑ f : Fin 256, v30 (ix3 (0 : Fin 1) n f) * v33 (ix2 f o) := by
  unfold k1_pay3
  rw [shapeCast_self, truncf_apply, mulf_apply, k1_pay1_apply, LibColumn.broadcastTo_a1_ab_apply, shapeCast_1ab_ab_apply]

/-- The result tile at row `r` and feature `o`. -/
theorem k1_pay4_apply (v5 : Vec Ideal S1x1024x2048 .f32) (v8 : Vec Ideal S2048x256 .bf16) (v13 : Vec Ideal S1024x1 .f32)
    (v16 : Vec Ideal S1024x256 .f32) (v17 : Vec Ideal S256 .f32) (u : Fin 1) (r : Fin 1024) (o : Fin 256) :
    k1_pay4 (F := Ideal) v5 v8 v13 v16 v17 (ix3 u r o)
      = v13 (ix2 r (0 : Fin 1)) * (∑ m : Fin 2048, v5 (ix3 (0 : Fin 1) r m) * v8 (ix2 m o))
        + (v13 (ix2 r (0 : Fin 1)) * v13 (ix2 r (0 : Fin 1))) * v16 (ix2 r o) + v17 (ix1 o) := by
  unfold k1_pay4
  rw [shapeCast_ab_1ab_apply, addf_apply, addf_apply, mulf_apply, mulf_apply,
    LibColumn.broadcastTo_a1_ab_apply, LibColumn.broadcastTo_a1_ab_apply, mulf_apply, shapeCast_self,
    broadcastTo_1b_ab_apply, shapeCast_a_1a_apply]
  congr 3
  refine (Cert.LibPlainDot.matmul_zero_apply (φ₁ := .bf16) (φ₂ := .bf16) dot_S1024x2048_S2048x256_S1024x256_1_0_0_1_n_n rfl none _ v8 r o).trans ?_
  refine Finset.sum_congr rfl fun m _ => ?_
  rw [truncf_apply, shapeCast_1ab_ab_apply]

end Cert.KernelIdeal.Fr

end
-- ==== Proof.KIVal1Out.lean ====
/-
  The result tile after any point, entry by entry: at point t = (batch t / 2, row tile t % 2) the entry (r, o) of the tile is the
  aggregate's value from the normaliser column at batch t / 2, row n = 1024 (t % 2) + r, feature o:
  d n * (sum over m of A n m * (d m * lin m o)) + (d n * d n) * lin n o + bias o.
  The tile's normaliser rows and its rows of the carried linear layer are the batch's rows from the tile's offset, the
  scratch buffers hold the linear layer of the batch's features (the batch of the even point before is the point's own), and
  every block is its array read at block index times block size plus the coordinate inside the block.
-/
import proofs.«171897_j16801912062239_2_alg».proof.Proof.KIVal1A
import proofs.«171897_j16801912062239_2_alg».proof.Proof.KIVal1Blk
import proofs.«171897_j16801912062239_2_alg».proof.Proof.KIVal1Pay
import proofs.«171897_j16801912062239_2_alg».proof.Proof.SpecCol

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-- The tile's normaliser rows: row r of the tile is row 1024 (tile index) + r of the column's block. -/
theorem colRows_apply (i : grid1.Coords) (x3 : Vec Ideal S1x2048x1 .f32) (r : Fin 1024) (z : Fin 1) (n : Fin 2048)
    (hn : n.val = 1024 * (i 1).val + r.val) : colRows i x3 (ix2 r z) = x3 (ix3 (0 : Fin 1) n z) := by
  have e : (Rect.unit (s := S2048x1) (k1_off1 i) S1024x1.size (k1_off1_inb i)).idx (ix2 r z) = ix2 n z := by
    funext a; apply Fin.ext
    have h0 : k1_off1 i 0 = 1024 * (i 1).val := congrFun (k1_off1_eq i) 0
    have h1 : k1_off1 i 1 = 0 := congrFun (k1_off1_eq i) 1
    match a with
    | ⟨0, _⟩ => show k1_off1 i 0 + 1 * r.val = n.val; omega
    | ⟨1, _⟩ => show k1_off1 i 1 + 1 * z.val = z.val; omega
  show shapeCast S2048x1 x3 shapeCasts_S1x2048x1_S2048x1 ((Rect.unit (s := S2048x1) (k1_off1 i) S1024x1.size (k1_off1_inb i)).idx (ix2 r z)) = _
  rw [e, shapeCast_1ab_ab_apply]

/-- The tile's rows of the carried linear layer. -/
theorem linRows_apply (i : grid1.Coords) (xs0 : Vec Ideal S2048x256 .f32) (r : Fin 1024) (o : Fin 256) (n : Fin 2048)
    (hn : n.val = 1024 * (i 1).val + r.val) : linRows i xs0 (ix2 r o) = xs0 (ix2 n o) := by
  have e : (Rect.unit (s := S2048x256) (k1_off2 i) S1024x256.size (k1_off2_inb i)).idx (ix2 r o) = ix2 n o := by
    funext a; apply Fin.ext
    have h0 : k1_off2 i 0 = 1024 * (i 1).val := congrFun (k1_off2_eq i) 0
    have h1 : k1_off2 i 1 = 0 := congrFun (k1_off2_eq i) 1
    match a with
    | ⟨0, _⟩ => show k1_off2 i 0 + 1 * r.val = n.val; omega
    | ⟨1, _⟩ => show k1_off2 i 1 + 1 * o.val = o.val; omega
  show xs0 ((Rect.unit (s := S2048x256) (k1_off2 i) S1024x256.size (k1_off2_inb i)).idx (ix2 r o)) = _
  rw [e]

/-- The result tile after either kind of point, as one expression of the point's blocks and the scratch buffers. -/
theorem outAt_eq (c : Dev nD) (t : Fin cfg1.N) :
    outAt (F := Ideal) V c t
      = k1_pay4 (F := Ideal) (iblk1 V c 0 t) (sAt V c t).2 (colRows (grid1.coords t) (iblk1 V c 3 t))
          (linRows (grid1.coords t) (sAt V c t).1) (iblk1 V c 4 t) := by
  by_cases h : t.val % 2 = 0
  · exact outAt_even_eq V c t h
  · exact outAt_odd_eq V c t h

/-- The entry (j 0, j 1, j 2) of the result tile's buffer after point t is the aggregate's value at batch t / 2,
    row 1024 (t % 2) + j 1, feature j 2, from the normaliser column the region finds. -/
theorem outAt_apply (c : Dev nD) (t : Fin cfg1.N)
    (j : S1x1024x256.Idx) (b : Fin 8) (n : Fin 2048) (o : Fin 256)
    (hb : b.val = t.val / 2) (hn : n.val = 1024 * (t.val % 2) + (j 1).val) (ho : o.val = (j 2).val) :
    outAt (F := Ideal) V c t j
      = Cert.Spec.outD (V c main_arg0) (V c main_arg1) (V c main_arg2) (V c main_arg3) (V c main_v0) b n o := by
  obtain ⟨u, r, o', rfl⟩ : ∃ (u : Fin 1) (r : Fin 1024) (o' : Fin 256), j = ix3 u r o' := ⟨j 0, j 1, j 2, eq_ix3 j⟩
  obtain rfl : o = o' := Fin.ext ho
  have hn' : n.val = 1024 * (t.val % 2) + r.val := hn
  have hi : ((grid1.coords t) 1).val = t.val % 2 := (idx_facts1 t).2.2.2.2.2.2.2.2.2.2.2.2
  have hbe : b.val = (evenPt t).val / 2 := by show b.val = (t.val - t.val % 2) / 2; omega
  have hni : n.val = 1024 * ((grid1.coords t) 1).val + r.val := by rw [hi]; exact hn'
  rw [outAt_eq, sAt_eq]
  dsimp only
  rw [k1_pay4_apply, colRows_apply _ _ r 0 n hni, linRows_apply _ _ r o n hni, k1_pay2_apply, iblk1_4_apply,
    iblk1_3_apply V c t 0 n 0 b hb]
  unfold Cert.Spec.outD Cert.Spec.lin
  congr 2
  · congr 1
    refine Finset.sum_congr rfl fun m _ => ?_
    rw [k1_pay3_apply, iblk1_0_apply V c t 0 r m b n hb hn', iblk1_3_apply V c (evenPt t) 0 m 0 b hbe]
    congr 2
    refine Finset.sum_congr rfl fun f _ => ?_
    rw [iblk1_1_apply V c (evenPt t) 0 m f b hbe, iblk1_2_apply]
  · congr 1
    refine Finset.sum_congr rfl fun f _ => ?_
    rw [iblk1_1_apply V c (evenPt t) 0 n f b hbe, iblk1_2_apply]

end Cert.KernelIdeal.Fr

end
-- ==== Proof.RefStages.lean ====
/-
  The reference program read entry by entry.

  Each stage of the reference (the identity matrix, A + I, its row sums, the power -1/2 with the
  infinite values replaced by zero, the normalised adjacency, the linear layer) is read at an index
  built from literal coordinates, and identified with the specification's function of the same name.
-/
import proofs.«171897_j16801912062239_2_alg».proof.Proof.Spec
import proofs.«171897_j16801912062239_2_alg».proof.Proof.LibConsts
import proofs.«171897_j16801912062239_2_alg».proof.Proof.Gen.ReferenceIdeal.Read

noncomputable section

namespace Cert.RefSide

open Idealize.ShloMosaic Idealize.ShloMosaic.ValueIdx Cert.ReferenceIdeal Cert.ReferenceIdeal.Read
open scoped BigOperators

/-! ## Words -/

/-- The word 0x7F800000 is +∞. -/
theorem ofBits_inf : Ideal.ofBits .f32 0x7F800000#32 = ⊤ := by
  simp [Ideal.ofBits, Ideal.ieee]

/-- Below 2048 (far below 2^32) the 32-bit word of a number determines the number. -/
theorem ofNat_inj_2048 (n m : Fin 2048) : BitVec.ofNat 32 n.val = BitVec.ofNat 32 m.val ↔ n = m := by
  constructor
  · intro h
    have e := congrArg BitVec.toNat h
    simp only [BitVec.toNat_ofNat] at e
    have hn := n.isLt
    have hm := m.isLt
    rw [Nat.mod_eq_of_lt (by omega), Nat.mod_eq_of_lt (by omega)] at e
    exact Fin.ext e
  · rintro rfl; rfl

/-- The identity matrix's entry as the program computes it: the row number plus zero compared with the
    column number, the one-bit answer read as a number. -/
theorem eye_word (n m : Fin 2048) :
    FloatOps.uitofp (F := Ideal) .f32
        (IntOp.cmpi .eq (IntOp.addi (BitVec.ofNat 32 n.val) 0#32) (BitVec.ofNat 32 m.val))
      = Cert.Spec.eye n m := by
  show (((IntOp.cmpi .eq (IntOp.addi (BitVec.ofNat 32 n.val) 0#32) (BitVec.ofNat 32 m.val)).toNat : ℝ) : EReal) = _
  unfold Cert.Spec.eye
  simp only [IntOp.cmpi, IntOp.addi, BitVec.add_zero]
  by_cases h : n = m
  · subst h; simp
  · rw [if_neg h]
    have hne : (BitVec.ofNat 32 n.val == BitVec.ofNat 32 m.val) = false := by
      rw [beq_eq_false_iff_ne]
      exact fun e => h ((ofNat_inj_2048 n m).mp e)
    rw [hne]; simp

/-- `select` on the bit of an equality test is the `if` on the equality. -/
theorem select_oeq (p t a c : EReal) :
    Scalar.select (Ideal.cmp .oeq p t) a c = if p = t then a else c := by
  unfold Scalar.select Ideal.cmp
  by_cases h : p = t
  · simp [h]
  · simp [h]

/-! ## The stages at an index -/

/-- The identity matrix at (n, m). -/
theorem eye_apply (n m : Fin 2048) : val_main_v5 (F := Ideal) (ix2 n m) = Cert.Spec.eye n m := by
  rw [val_main_v5_apply, val_main_v4_apply, val_main_v3_apply, val_main_v0_apply, val_main_v1_apply,
    val_main_v2_apply, val_main_c_apply]
  exact eye_word n m

/-- A + I at (b, n, m). -/
theorem adjI_apply (adj : FVec Ideal S8x2048x2048 .f32) (b : Fin 8) (n m : Fin 2048) :
    val_main_v8 (F := Ideal) adj (ix3 b n m) = adj (ix3 b n m) + Cert.Spec.eye n m := by
  have e : idx_main_v6 (idx_main_v7 (ix3 b n m)) = ix2 n m :=
    funext fun a => Fin.ext (by match a with | ⟨0, _⟩ => rfl | ⟨1, _⟩ => rfl)
  rw [val_main_v8_apply, val_main_v7_apply, val_main_v6_apply, e, eye_apply]
  rfl

/-- The degree: the row sum of A + I from the zero initial value. -/
theorem deg_apply (adj : FVec Ideal S8x2048x2048 .f32) (b : Fin 8) (n : Fin 2048) :
    val_main_v9 (F := Ideal) adj (ix2 b n) = Cert.Spec.degR adj b n := by
  rw [val_main_v9_apply, val_main_cst_apply, Ideal.ofBits_def, Ideal.ofBits_zero_f32]
  unfold Cert.Spec.degR
  refine congrArg (0 + ·) (Finset.sum_congr rfl fun k _ => ?_)
  have e : idx_main_v9 (ix2 b n) k = ix3 b n k :=
    funext fun a => Fin.ext (by match a with | ⟨0, _⟩ => rfl | ⟨1, _⟩ => rfl | ⟨2, _⟩ => rfl)
  rw [e, adjI_apply]

/-- The degree to the power -1/2. -/
theorem pow_apply (adj : FVec Ideal S8x2048x2048 .f32) (b : Fin 8) (n : Fin 2048) :
    val_main_v11 (F := Ideal) adj (ix2 b n)
      = Ideal.pow (Cert.Spec.degR adj b n) (((-(1 / 2) : ℝ)) : EReal) := by
  rw [val_main_v11_apply, deg_apply, val_main_v10_apply, val_main_cst_0_apply, Ideal.ofBits_def,
    Cert.Consts.ofBits_neg_half]
  rfl

/-- The same with an infinite value replaced by zero: |p| = +∞ is tested, and 0 or p selected. -/
theorem dis_apply (adj : FVec Ideal S8x2048x2048 .f32) (b : Fin 8) (n : Fin 2048) :
    val_main_v13 (F := Ideal) adj (ix2 b n) = Cert.Spec.disR adj b n := by
  rw [val_main_v13_apply, val_main_v12_apply, val_main_call0_v0_apply, val_main_call0_v1_apply,
    val_main_call0_cst_apply, val_main_call1_v1_apply, val_main_call1_v0_apply, val_main_cst_1_apply,
    pow_apply]
  unfold Cert.Spec.disR
  generalize Ideal.pow (Cert.Spec.degR adj b n) (((-(1 / 2) : ℝ)) : EReal) = p
  rw [Ideal.hostAbsf_def, Ideal.absf_def, Ideal.cmpf_def, Ideal.ofBits_def, Ideal.ofBits_def, ofBits_inf,
    Ideal.ofBits_zero_f32]
  exact select_oeq _ _ _ _

/-- The normalised adjacency (dis n · (A + I) n m) · dis m. -/
theorem norm_apply (adj : FVec Ideal S8x2048x2048 .f32) (b : Fin 8) (n m : Fin 2048) :
    val_main_v19 (F := Ideal) adj (ix3 b n m)
      = (Cert.Spec.disR adj b n * (adj (ix3 b n m) + Cert.Spec.eye n m)) * Cert.Spec.disR adj b m := by
  have e1 : idx_main_v14 (idx_main_v15 (ix3 b n m)) = ix2 b n :=
    funext fun a => Fin.ext (by match a with | ⟨0, _⟩ => rfl | ⟨1, _⟩ => rfl)
  have e2 : idx_main_v17 (idx_main_v18 (ix3 b n m)) = ix2 b m :=
    funext fun a => Fin.ext (by match a with | ⟨0, _⟩ => rfl | ⟨1, _⟩ => rfl)
  rw [val_main_v19_apply, val_main_v16_apply, val_main_v15_apply, val_main_v14_apply, e1, dis_apply,
    adjI_apply, val_main_v18_apply, val_main_v17_apply, e2, dis_apply]
  rfl

/-- The linear layer x W at (b, n, o). -/
theorem lin_apply (x : FVec Ideal S8x2048x256 .f32) (W : FVec Ideal S256x256 .f32) (b : Fin 8) (n : Fin 2048)
    (o : Fin 256) : val_main_v20 (F := Ideal) x W (ix3 b n o) = Cert.Spec.lin x W b n o := by
  rw [val_main_v20_apply]
  unfold Cert.Spec.lin
  refine Finset.sum_congr rfl fun f _ => ?_
  have el : lidx_main_v20 (ix3 b n o) f = ix3 b n f :=
    funext fun a => Fin.ext (by match a with | ⟨0, _⟩ => rfl | ⟨1, _⟩ => rfl | ⟨2, _⟩ => rfl)
  have er : ridx_main_v20 (ix3 b n o) f = ix2 f o :=
    funext fun a => Fin.ext (by match a with | ⟨0, _⟩ => rfl | ⟨1, _⟩ => rfl)
  rw [el, er]

/-! ## The whole result -/

/-- The reference's last stage is the specification's `refArr`. -/
theorem ref_eq (x : FVec Ideal S8x2048x256 .f32) (adj : FVec Ideal S8x2048x2048 .f32)
    (W : FVec Ideal S256x256 .f32) (bias : FVec Ideal S256 .f32) :
    val_main_v24 (F := Ideal) x adj W bias = Cert.Spec.refArr x adj W bias := by
  funext i
  obtain ⟨b, n, o, rfl⟩ : ∃ (b : Fin 8) (n : Fin 2048) (o : Fin 256), i = ix3 b n o :=
    ⟨i 0, i 1, i 2, eq_ix3 i⟩
  have eb : idx_main_v22 (idx_main_v23 (ix3 b n o)) = ix1 o :=
    funext fun a => Fin.ext (by match a with | ⟨0, _⟩ => rfl)
  rw [Cert.Spec.refArr_apply, val_main_v24_apply, val_main_v21_apply, val_main_v23_apply, val_main_v22_apply, eb]
  unfold Cert.Spec.refOut
  refine congrArg (· + bias (ix1 o)) (Finset.sum_congr rfl fun m _ => ?_)
  have el : lidx_main_v21 (ix3 b n o) m = ix3 b n m :=
    funext fun a => Fin.ext (by match a with | ⟨0, _⟩ => rfl | ⟨1, _⟩ => rfl | ⟨2, _⟩ => rfl)
  have er : ridx_main_v21 (ix3 b n o) m = ix3 b m o :=
    funext fun a => Fin.ext (by match a with | ⟨0, _⟩ => rfl | ⟨1, _⟩ => rfl | ⟨2, _⟩ => rfl)
  rw [el, er, norm_apply, lin_apply]

end Cert.RefSide

end
-- ==== Proof.RefRun.lean ====
/-
  The reference program's run ends at the specification's `refArr`.

  The run of the reference, read back operation by operation, leaves its result buffer at the composed
  term of the four argument buffers and the arguments unchanged; that term is the last stage of the
  entry-by-entry reading, which is `refArr` of the arguments.
-/
import proofs.«171897_j16801912062239_2_alg».proof.Proof.RefStages

noncomputable section

namespace Cert.RefSide

open Idealize.ShloMosaic Idealize.ShloMosaic.TcCoe Idealize.SL.Sem Idealize.ShloMosaic.StableHlo

/-- Every weakly fair execution of the reference terminates with the result buffer at `refArr` of the
    argument buffers' contents at launch, and the argument buffers unchanged. -/
theorem run_ref [Cert.ReferenceIdeal.Facts]
    (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v24)
            = Cert.Spec.refArr (m ((c.tc : Thread _ _).loc Cert.ReferenceIdeal.main_arg0))
                (m ((c.tc : Thread _ _).loc Cert.ReferenceIdeal.main_arg1))
                (m ((c.tc : Thread _ _).loc Cert.ReferenceIdeal.main_arg2))
                (m ((c.tc : Thread _ _).loc Cert.ReferenceIdeal.main_arg3))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)
        ∧ r.2.mem ((c.tc : Thread _ _).loc Cert.ReferenceIdeal.main_arg3) = m ((c.tc : Thread _ _).loc Cert.ReferenceIdeal.main_arg3)) :=
  (θ_run _ _ _).mono
    (fun _ h c => ⟨(h c).1.trans ((Cert.ReferenceIdeal.Read.val_main_v24_eq _ _ _ _).trans (ref_eq _ _ _ _)), (h c).2⟩)
    (Cert.ReferenceIdeal.Value.run (F := Ideal) m ρ)

end Cert.RefSide

end
-- ==== Proof.Algebra.lean ====
/-
  The reference's spelling of the normalised graph convolution equals the specification's, entry by entry,
  when every input entry is a real number.

  Three steps: the two degrees agree (sums in the extended reals split without any finiteness); the two
  spellings of `deg ^ (-1/2)` agree and are real numbers (three cases on the sign of the degree); with every
  factor real the remaining identity is one of finite real sums.
-/
import proofs.«171897_j16801912062239_2_alg».proof.Proof.Spec
import Mathlib.Analysis.SpecialFunctions.Pow.Real
import Mathlib.Analysis.SpecialFunctions.Trigonometric.Basic

noncomputable section

namespace Cert.Spec

open Idealize.ShloMosaic Idealize.ShloMosaic.ValueIdx
open scoped BigOperators

/-! ## Sums of real numbers in the extended reals -/

/-- The coercion from the reals commutes with finite sums. -/
theorem coe_finset_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The real identity behind the equality: in `∑ m, (s n * (a m + δ n m)) * s m * l m` the row factor `s n` leaves the
    sum and the identity's term `δ n m` contributes `s n * s n * l n`. -/
theorem real_identity {ι : Type} [Fintype ι] [DecidableEq ι] (n : ι) (s a l : ι → ℝ) :
    (∑ m, ((s n * (a m + (if n = m then (1 : ℝ) else 0))) * s m) * l m)
      = s n * (∑ m, a m * (s m * l m)) + (s n * s n) * l n := by
  have h : ∀ m, ((s n * (a m + (if n = m then (1 : ℝ) else 0))) * s m) * l m
      = s n * (a m * (s m * l m)) + (if n = m then (s n * s m) * l m else 0) := by
    intro m
    split_ifs <;> ring
  simp only [h, Finset.sum_add_distrib, ← Finset.mul_sum, Finset.sum_ite_eq, Finset.mem_univ, if_true]

/-! ## The degree -/

/-- A row of the identity matrix sums to one. -/
theorem sum_eye (n : Fin 2048) : (∑ m : Fin 2048, eye n m) = 1 := by
  simp only [eye, Finset.sum_ite_eq, Finset.mem_univ, if_true]

/-- An entry of the identity matrix is a real number. -/
theorem eye_coe (n m : Fin 2048) : eye n m = (((if n = m then (1 : ℝ) else 0) : ℝ) : EReal) := by
  unfold eye
  split_ifs
  · exact EReal.coe_one.symm
  · exact EReal.coe_zero.symm

/-- The row sum of `A + I` from zero is the row sum of `A`, plus one: sums in the extended reals split termwise. -/
theorem degR_eq_deg (adj : Adj) (b : Fin 8) (n : Fin 2048) : degR adj b n = deg adj b n := by
  rw [degR, deg, zero_add, Finset.sum_add_distrib, sum_eye]

/-- With real entries the degree is a real number. -/
theorem deg_real (adj : Adj) (hadj : AllReal adj) (b : Fin 8) (n : Fin 2048) :
    ∃ d : ℝ, deg adj b n = (d : EReal) := by
  choose a ha using hadj
  refine ⟨(∑ m : Fin 2048, a (ix3 b n m)) + 1, ?_⟩
  rw [deg, EReal.coe_add, EReal.coe_one, ← coe_finset_sum]
  simp only [ha]

/-! ## The power `deg ^ (-1/2)` -/

/-- An infinite value (of either sign) replaced by zero. -/
def zeroInf (p : EReal) : EReal := if max p (-p) = ⊤ then 0 else p

theorem dis_eq_zeroInf (adj : Adj) (b : Fin 8) (n : Fin 2048) :
    dis adj b n = zeroInf (Ideal.rsqrt (deg adj b n)) := rfl

theorem disR_eq_zeroInf (adj : Adj) (b : Fin 8) (n : Fin 2048) :
    disR adj b n = zeroInf (Ideal.pow (degR adj b n) (((-(1 / 2) : ℝ)) : EReal)) := rfl

/-- A real number is kept. -/
theorem zeroInf_coe (p : ℝ) : zeroInf (p : EReal) = (p : EReal) := by
  unfold zeroInf
  rw [if_neg]
  rw [max_eq_top]
  rintro (h | h)
  · exact EReal.coe_ne_top p h
  · rw [EReal.neg_eq_top_iff] at h
    exact EReal.coe_ne_bot p h

theorem zeroInf_top : zeroInf ⊤ = 0 := by
  unfold zeroInf
  rw [if_pos]
  exact max_eq_top.mpr (Or.inl rfl)

theorem zeroInf_bot : zeroInf ⊥ = 0 := by
  unfold zeroInf
  rw [if_pos]
  exact max_eq_top.mpr (Or.inr EReal.neg_bot)

/-- The real power `d ^ (-1/2)` of a negative number is zero: its cosine factor is `cos (π / 2)`. -/
theorem rpow_neg_half_of_neg {d : ℝ} (hd : d < 0) : d ^ (-(1 / 2) : ℝ) = 0 := by
  rw [Real.rpow_def_of_neg hd]
  have hc : Real.cos (-(1 / 2) * Real.pi) = 0 := by
    rw [show (-(1 / 2) * Real.pi : ℝ) = -(Real.pi / 2) by ring, Real.cos_neg, Real.cos_pi_div_two]
  rw [hc, mul_zero]

/-- The real power `d ^ (-1/2)` of a positive number is the reciprocal of its square root. -/
theorem rpow_neg_half_of_pos {d : ℝ} (hd : 0 < d) : d ^ (-(1 / 2) : ℝ) = (Real.sqrt d)⁻¹ := by
  rw [Real.rpow_neg hd.le, Real.sqrt_eq_rpow]

/-- For a real degree the reciprocal square root and the real power `· ^ (-1/2)`, each with an infinite value replaced by
    zero, are one and the same real number: the reciprocal root for a positive degree, zero otherwise. -/
theorem zeroInf_rsqrt_pow (d : ℝ) :
    ∃ r : ℝ, zeroInf (Ideal.rsqrt (d : EReal)) = (r : EReal)
      ∧ zeroInf (Ideal.pow (d : EReal) (((-(1 / 2) : ℝ)) : EReal)) = (r : EReal) := by
  rw [Ideal.pow_coe_coe, Real.rpow_eq_pow, zeroInf_coe, Ideal.rsqrt_coe]
  rcases lt_trichotomy d 0 with hd | hd | hd
  · refine ⟨0, ?_, ?_⟩
    · rw [if_pos hd, zeroInf_bot, EReal.coe_zero]
    · rw [rpow_neg_half_of_neg hd]
  · refine ⟨0, ?_, ?_⟩
    · rw [if_neg (not_lt.mpr hd.ge), if_pos hd, zeroInf_top, EReal.coe_zero]
    · rw [hd, Real.zero_rpow (by norm_num)]
  · refine ⟨(Real.sqrt d)⁻¹, ?_, ?_⟩
    · rw [if_neg (not_lt.mpr hd.le), if_neg hd.ne', zeroInf_coe]
    · rw [rpow_neg_half_of_pos hd]

/-- The two spellings of `deg ^ (-1/2)` agree and are a real number. -/
theorem dis_disR_real (adj : Adj) (hadj : AllReal adj) (b : Fin 8) (n : Fin 2048) :
    ∃ r : ℝ, dis adj b n = (r : EReal) ∧ disR adj b n = (r : EReal) := by
  obtain ⟨d, hd⟩ := deg_real adj hadj b n
  rw [dis_eq_zeroInf, disR_eq_zeroInf, degR_eq_deg, hd]
  exact zeroInf_rsqrt_pow d

theorem dis_real (adj : Adj) (hadj : AllReal adj) (b : Fin 8) (n : Fin 2048) :
    ∃ r : ℝ, dis adj b n = (r : EReal) :=
  (dis_disR_real adj hadj b n).imp fun _ h => h.1

theorem disR_eq_dis (adj : Adj) (hadj : AllReal adj) (b : Fin 8) (n : Fin 2048) :
    disR adj b n = dis adj b n := by
  obtain ⟨r, h1, h2⟩ := dis_disR_real adj hadj b n
  rw [h1, h2]

/-! ## The linear layer -/

/-- With real features and weights the linear layer is a real number. -/
theorem lin_real (x : Feat) (W : Wt) (hx : AllReal x) (hW : AllReal W) (b : Fin 8) (n : Fin 2048) (o : Fin 256) :
    ∃ r : ℝ, lin x W b n o = (r : EReal) := by
  choose xr hxr using hx
  choose wr hwr using hW
  refine ⟨∑ f : Fin 256, xr (ix3 b n f) * wr (ix2 f o), ?_⟩
  rw [lin, ← coe_finset_sum]
  simp only [hxr, hwr, EReal.coe_mul]

/-! ## The equality -/

theorem refOut_eq_out (x : Feat) (adj : Adj) (W : Wt) (bias : Bias)
    (hx : AllReal x) (hadj : AllReal adj) (hW : AllReal W) (hb : AllReal bias)
    (b : Fin 8) (n : Fin 2048) (o : Fin 256) : refOut x adj W bias b n o = out x adj W bias b n o := by
  choose s hs using fun m => dis_real adj hadj b m
  choose a ha using fun m => hadj (ix3 b n m)
  choose l hl using fun m => lin_real x W hx hW b m o
  obtain ⟨β, hβ⟩ := hb (ix1 o)
  unfold refOut out
  simp only [disR_eq_dis adj hadj, hs, ha, hl, hβ, eye_coe, ← EReal.coe_mul, ← EReal.coe_add, coe_finset_sum]
  rw [real_identity]

theorem refArr_eq_outArr (x : Feat) (adj : Adj) (W : Wt) (bias : Bias)
    (hx : AllReal x) (hadj : AllReal adj) (hW : AllReal W) (hb : AllReal bias) :
    refArr x adj W bias = outArr x adj W bias :=
  funext fun i => refOut_eq_out x adj W bias hx hadj hW hb (i 0) (i 1) (i 2)

end Cert.Spec

end
-- ==== Proof.Finite.lean ====
/-
  The precondition "every input entry has absolute value below +∞" gives: every input entry is a real number.

  The predicate is the conjunction of four `all`s, each a reduction by `and` of the entrywise comparison
  `|v| < +∞`; the conjunction being 1 makes each reduction 1, a reduction being 1 makes each entry's comparison 1,
  and an extended real whose absolute value is below `⊤` is neither infinity.
-/
import proofs.«171897_j16801912062239_2_alg».proof.Pre_finite_inputs
import proofs.«171897_j16801912062239_2_alg».proof.Proof.Spec
import Idealize.ShloMosaic.Lib.ReduceAll

noncomputable section

namespace Cert.Spec

open Idealize.ShloMosaic Idealize.ShloMosaic.ValueIdx

/-- The rank-0 shape has one index. -/
instance subsingleton_scalarIdx : Subsingleton Cert.Pre_finite_inputs.S_.Idx := ⟨fun _ _ => funext fun d => d.elim0⟩

/-- The pattern `0x7F800000` denotes `+∞`. -/
theorem ofBits_inf : Ideal.ofBits .f32 0x7F800000#32 = (⊤ : EReal) := by
  simp [Ideal.ofBits, Ideal.ieee]

/-- An extended real whose absolute value `max v (-v)` is below `+∞` is a real number: both infinities have absolute value `⊤`. -/
theorem real_of_abs_lt_inf (v : EReal)
    (h : Ideal.cmp .olt (max v (-v)) (Ideal.ofBits .f32 0x7F800000#32) = 1#1) : ∃ r : ℝ, v = (r : EReal) := by
  rw [ofBits_inf] at h
  induction v using EReal.rec with
  | bot => simp [Ideal.cmp] at h
  | coe r => exact ⟨r, rfl⟩
  | top => simp [Ideal.cmp] at h

theorem allReal_of_pre [Cert.Pre_finite_inputs.Facts] (x : Feat) (adj : Adj) (W : Wt) (bias : Bias)
    (h : Cert.Pre_finite_inputs.fn (F := Ideal) x adj W bias = fun _ => 1#1) :
    AllReal x ∧ AllReal adj ∧ AllReal W ∧ AllReal bias := by
  have h0 := congrFun h ValueIdx.ix0
  dsimp only [Cert.Pre_finite_inputs.fn, Cert.Pre_finite_inputs.fn_part1, andi] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact real_of_abs_lt_inf (x i) (Host.reduce_andi_all _ _ _ _ _ h1 i)
  · exact real_of_abs_lt_inf (adj i) (Host.reduce_andi_all _ _ _ _ _ h2 i)
  · exact real_of_abs_lt_inf (W i) (Host.reduce_andi_all _ _ _ _ _ h3 i)
  · exact real_of_abs_lt_inf (bias i) (Host.reduce_andi_all _ _ _ _ _ h4 i)

end Cert.Spec

end
-- ==== Proof.lean ====
/-
  A dense-adjacency graph convolution, `out = D^{-1/2} (A + I) D^{-1/2} (x W) + bias` with `D` the row degrees of `A + I`,
  computed by two kernels against its plain array reference, equal entry by entry over the extended reals for finite inputs.

  The kernel program first reduces each row of `adj` to `dis = deg^{-1/2}` (an infinite value replaced by 0), one block of
  512 rows per grid point; then, per batch and per tile of 1024 rows, it forms `h = x W` and `dis * h` once per batch into
  two scratch buffers (at the batch's first tile) and stores `dis_n * (A_tile (dis * h)) + dis_n^2 * h_tile + bias`.
  The reference forms the normalised adjacency `dis_n (A + I)_{nm} dis_m` whole and multiplies it into `x W`.

  * The frames (Proof/KMain.lean for the program as printed, Proof/KIMain.lean for its idealization — one text at any float
    instance): each region's body run symbolically at a generic grid point, the second region's two scratch buffers
    carried through its invariant, the two regions chained from the launch to the return.
  * The kernel's value (Proof/KIVal0.lean, KIVal1.lean, KIValue.lean): the blocks the write-backs leave tile the column
    and the result, and entry by entry they are the specification's `dis` and `out` (Proof/Spec.lean, SpecCol.lean).
  * The reference's value (Proof/RefStages.lean, RefRun.lean): its operations read one at a time at an index.
  * The law joining them (Proof/Algebra.lean): the reciprocal square root and the real power `deg^(-1/2)` agree once
    infinite values are replaced by 0 (both are 0 at a degree ≤ 0), the identity's term leaves the sum, and the row factor
    distributes out of it — over real entries, which the precondition gives (Proof/Finite.lean).
  The idealization rewrote no operation, so `preserves` is `True`.
-/
import proofs.«171897_j16801912062239_2_alg».proof.Defs
import proofs.«171897_j16801912062239_2_alg».proof.Proof.Gen.Kernel
import proofs.«171897_j16801912062239_2_alg».proof.Proof.Gen.KernelIdeal
import proofs.«171897_j16801912062239_2_alg».proof.Proof.Gen.ReferenceIdeal
import proofs.«171897_j16801912062239_2_alg».proof.Proof.Gen.ReferenceIdeal.Run
import proofs.«171897_j16801912062239_2_alg».proof.Proof.Gen.Pre_finite_inputs
import proofs.«171897_j16801912062239_2_alg».proof.Proof.KMain
import proofs.«171897_j16801912062239_2_alg».proof.Proof.KIMain
import proofs.«171897_j16801912062239_2_alg».proof.Proof.KIValue
import proofs.«171897_j16801912062239_2_alg».proof.Proof.KIVal0
import proofs.«171897_j16801912062239_2_alg».proof.Proof.KIVal1
import proofs.«171897_j16801912062239_2_alg».proof.Proof.KIVal1Out
import proofs.«171897_j16801912062239_2_alg».proof.Proof.RefRun
import proofs.«171897_j16801912062239_2_alg».proof.Proof.Algebra
import proofs.«171897_j16801912062239_2_alg».proof.Proof.Finite

noncomputable section

namespace Cert.Proof

open Idealize.ShloMosaic Idealize.ShloMosaic.TcCoe Idealize.SL.Sem

/-- The program as printed runs to the end and leaves its arguments unchanged. -/
theorem frame_k : Cert.frame_Kernel := fun m ρ _ => Cert.Kernel.Fr.frame m ρ
/-- So does its idealization. -/
theorem frame_ki : Cert.frame_KernelIdeal := fun m ρ _ => Cert.KernelIdeal.Fr.frame m ρ
/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the specification's array: the kernel by its two regions' write-backs, the reference
    by its operations and, for real entries, the law that joins the two spellings. -/
theorem algebraic : Cert.algebraic_KernelIdeal_ReferenceIdeal := by
  intro m ρ m' ρ' hpre hagree
  refine ⟨fun c => Cert.Spec.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Fr.main_v1_val_of m ρ Cert.KernelIdeal.Fr.region0_val (fun V c => Cert.KernelIdeal.Fr.region1_val_of V Cert.KernelIdeal.Fr.outAt_apply c) c), (h c).2⟩)
      (Cert.KernelIdeal.Fr.run_all (F := Ideal) m ρ)
  · refine (θ_run Cert.ReferenceIdeal.defs _ _).mono (fun _ h c => ⟨(h c).1.trans ?_, (h c).2⟩) (Cert.RefSide.run_ref m' ρ')
    obtain ⟨hx, hadj, hW, hb⟩ := Cert.Spec.allReal_of_pre _ _ _ _ (hpre c)
    rw [(hagree c).1, (hagree c).2.1, (hagree c).2.2.1, (hagree c).2.2.2]
    exact Cert.Spec.refArr_eq_outArr _ _ _ _ hx hadj hW hb

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
